-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x512 : Shape := ⟨2, ![64, 512]⟩
abbrev S512 : Shape := ⟨1, ![512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64x512 : S_.BroadcastsInDim S64x512 (![] : Fin 0 → Fin S64x512.rank)
  reducesTo_S64x512_S_d0_1 : S64x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg8 : FVec F S64x512 .f32) (main_arg9 : FVec F S512 .f32) (main_v33 : IVec S_ 1) : IVec S_ 1 :=
  let main_v34 : FVec F S64x512 .f32 := Host.absf main_arg8
  let main_cst_12 : FVec F S_ .f32 := constant S_ .f32 0x7F800000#32
  let main_v35 : FVec F S64x512 .f32 := broadcastInDim S64x512 ![] bcast_S_S64x512 main_cst_12
  let main_v36 : IVec S64x512 1 := cmpf .olt main_v34 main_v35
  let main_c_13 : IVec S_ 1 := constantI S_ 1 1#1
  let main_v37 : IVec S_ 1 := (fun x v => Host.reduce IntOp.andi x v reducesTo_S64x512_S_d0_1 h_S_) main_v36 main_c_13
  let main_v38 : IVec S_ 1 := andi main_v33 main_v37
  let main_v39 : FVec F S512 .f32 := Host.absf main_arg9
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  main_v43

def fn_part1 {F : FTy → Type} [FloatOps F] (main_arg5 : FVec F S32 .f32) (main_arg6 : FVec F S32x64 .f32) (main_arg7 : FVec F S64 .f32) (main_arg8 : FVec F S64x512 .f32) (main_arg9 : FVec F S512 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_v33

def fn {F : FTy → Type} [FloatOps F] (main_arg0 : FVec F S50000x512 .f32) (main_arg1 : IVec S2x1600000 32) (main_arg2 : FVec F S512x64 .f32) (main_arg3 : FVec F S64 .f32) (main_arg4 : FVec F S64x32 .f32) (main_arg5 : FVec F S32 .f32) (main_arg6 : FVec F S32x64 .f32) (main_arg7 : FVec F S64 .f32) (main_arg8 : FVec F S64x512 .f32) (main_arg9 : FVec F S512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_v13 main_v16
-- ==== Kernel.lean ====
abbrev S50000x512 : Shape := ⟨2, ![50000, 512]⟩
abbrev S2x1600000 : Shape := ⟨2, ![2, 1600000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x512 : Shape := ⟨2, ![64, 512]⟩
abbrev S512 : Shape := ⟨1, ![512]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x1 : Shape := ⟨2, ![50000, 1]⟩
abbrev S50000x64 : Shape := ⟨2, ![50000, 64]⟩
abbrev S2000x512 : Shape := ⟨2, ![2000, 512]⟩
abbrev S2000x1 : Shape := ⟨2, ![2000, 1]⟩
abbrev S2000x64 : Shape := ⟨2, ![2000, 64]⟩
abbrev S1650000x64 : Shape := ⟨2, ![1650000, 64]⟩
abbrev S1x64 : Shape := ⟨2, ![1, 64]⟩
abbrev S50000x32 : Shape := ⟨2, ![50000, 32]⟩
abbrev S5000x64 : Shape := ⟨2, ![5000, 64]⟩
abbrev S5000x1 : Shape := ⟨2, ![5000, 1]⟩
abbrev S5000x32 : Shape := ⟨2, ![5000, 32]⟩
abbrev S1650000x32 : Shape := ⟨2, ![1650000, 32]⟩
abbrev S1x32 : Shape := ⟨2, ![1, 32]⟩
abbrev S1x512 : Shape := ⟨2, ![1, 512]⟩
abbrev S5000x512 : Shape := ⟨2, ![5000, 512]⟩

abbrev nBuf : Space → Nat
  | .hbm => 59
  | .vmem => 30
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S64x512, .f32⟩
  | .hbm, ⟨9, _⟩ => ⟨S512, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x64, .f32⟩
  | .hbm, ⟨26, _⟩ => ⟨S_, .i32⟩
  | .hbm, ⟨27, _⟩ => ⟨S1650000, .i32⟩
  | .hbm, ⟨28, _⟩ => ⟨S1650000, .i1⟩
  | .hbm, ⟨29, _⟩ => ⟨S_, .i32⟩
  | .hbm, ⟨30, _⟩ => ⟨S1650000, .i32⟩
  | .hbm, ⟨31, _⟩ => ⟨S1650000, .i32⟩
  | .hbm, ⟨32, _⟩ => ⟨S1650000, .i32⟩
  | .hbm, ⟨33, _⟩ => ⟨S1650000x1, .i32⟩
  | .hbm, ⟨34, _⟩ => ⟨S1650000x64, .f32⟩
  | .hbm, ⟨35, _⟩ => ⟨S_, .f32⟩
  | .hbm, ⟨36, _⟩ => ⟨S50000x64, .f32⟩
  | .hbm, ⟨37, _⟩ => ⟨S1650000x1, .i32⟩
  | .hbm, ⟨38, _⟩ => ⟨S50000x64, .f32⟩
  | .hbm, ⟨39, _⟩ => ⟨S1x64, .f32⟩
  | .hbm, ⟨40, _⟩ => ⟨S50000x32, .f32⟩
  | .hbm, ⟨41, _⟩ => ⟨S_, .i32⟩
  | .hbm, ⟨42, _⟩ => ⟨S1650000, .i32⟩
  | .hbm, ⟨43, _⟩ => ⟨S1650000, .i1⟩
  | .hbm, ⟨44, _⟩ => ⟨S_, .i32⟩
  | .hbm, ⟨45, _⟩ => ⟨S1650000, .i32⟩
  | .hbm, ⟨46, _⟩ => ⟨S1650000, .i32⟩
  | .hbm, ⟨47, _⟩ => ⟨S1650000, .i32⟩
  | .hbm, ⟨48, _⟩ => ⟨S1650000x1, .i32⟩
  | .hbm, ⟨49, _⟩ => ⟨S1650000x32, .f32⟩
  | .hbm, ⟨50, _⟩ => ⟨S_, .f32⟩
  | .hbm, ⟨51, _⟩ => ⟨S50000x32, .f32⟩
  | .hbm, ⟨52, _⟩ => ⟨S1650000x1, .i32⟩
  | .hbm, ⟨53, _⟩ => ⟨S50000x32, .f32⟩
  | .hbm, ⟨54, _⟩ => ⟨S1x32, .f32⟩
  | .hbm, ⟨55, _⟩ => ⟨S50000x32, .f32⟩
  | .hbm, ⟨56, _⟩ => ⟨S1x64, .f32⟩
  | .hbm, ⟨57, _⟩ => ⟨S1x512, .f32⟩
  | .hbm, ⟨58, _⟩ => ⟨S50000x512, .f32⟩
  | .local _ .vmem, ⟨0, _⟩ => ⟨S2000x512, .f32⟩
  | .local _ .vmem, ⟨1, _⟩ => ⟨S2000x512, .f32⟩
  | .local _ .vmem, ⟨2, _⟩ => ⟨S512x64, .f32⟩
  | .local _ .vmem, ⟨3, _⟩ => ⟨S2000x1, .f32⟩
  | .local _ .vmem, ⟨4, _⟩ => ⟨S2000x1, .f32⟩
  | .local _ .vmem, ⟨5, _⟩ => ⟨S2000x64, .f32⟩
  | .local _ .vmem, ⟨6, _⟩ => ⟨S2000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x1, .f32⟩
  | .local _ .vmem, ⟨18, _⟩ => ⟨S5000x1, .f32⟩
  | .local _ .vmem, ⟨19, _⟩ => ⟨S1x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S32x64, .f32⟩
  | .local _ .vmem, ⟨25, _⟩ => ⟨S1x64, .f32⟩
  | .local _ .vmem, ⟨26, _⟩ => ⟨S64x512, .f32⟩
  | .local _ .vmem, ⟨27, _⟩ => ⟨S1x512, .f32⟩
  | .local _ .vmem, ⟨28, _⟩ => ⟨S5000x512, .f32⟩
  | .local _ .vmem, ⟨29, _⟩ => ⟨S5000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_3 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x512 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  shapeCasts_S50000_S50000x1 : S50000.ShapeCasts S50000x1
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  shapeCasts_S64_S1x64 : S64.ShapeCasts S1x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S50000x32 : S_.BroadcastsInDim S50000x32 (![] : Fin 0 → Fin S50000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  shapeCasts_S512_S1x512 : S512.ShapeCasts S1x512
  inb_S32x64_S32x64_0_0 : ∀ a, (![0, 0] : Fin 2 → Nat) a + S32x64.size a ≤ S32x64.size a
  h_S32x64 : 0 < S32x64.numel
  inb_S64x512_S64x512_0_0 : ∀ a, (![0, 0] : Fin 2 → Nat) a + S64x512.size a ≤ S64x512.size a
  h_S64x512 : 0 < S64x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S5000x512 : S1x512.Broadcasts S5000x512
  inb_S5000x512_S5000x512_0_0 : ∀ a, (![0, 0] : Fin 2 → Nat) a + S5000x512.size a ≤ S5000x512.size a
  h_S5000x512 : 0 < S5000x512.numel
  scatter_S50000_S1650000x1_S1650000_n_0_0_1_wf : ScatterDims.WF S50000 S1650000x1 S1650000 [] [0] [0] 1
  dot_S2000x512_S512x64_S2000x64_1_0_0_1_n_n_wf : DotDims.WF S2000x512 S512x64 S2000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S5000x64_S64x32_S5000x32_1_0_0_1_n_n_wf : DotDims.WF S5000x64 S64x32 S5000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  dot_S5000x32_S32x64_S5000x64_1_0_0_1_n_n_wf : DotDims.WF S5000x32 S32x64 S5000x64 [1] [0] [0] [1] [] []
  dot_S5000x64_S64x512_S5000x512_1_0_0_1_n_n_wf : DotDims.WF S5000x64 S64x512 S5000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .f32 = 32 ∨ (Rect.block (s := S50000x64) S2000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S50000x32.size a
  hwx1_4 : ∀ i : grid1.Coords, EltTy.bits .f32 = 32 ∨ (Rect.block (s := S50000x32) S5000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S50000x32.size a
  hwx2_3 : ∀ i : grid2.Coords, EltTy.bits .f32 = 32 ∨ (Rect.block (s := S50000x32) S5000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S50000x32.size a
  hwx3_0 : ∀ i : grid3.Coords, EltTy.bits .f32 = 32 ∨ (Rect.block (s := S50000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x64.size a ≤ S32x64.size a
  hwx3_1 : ∀ i : grid3.Coords, EltTy.bits .f32 = 32 ∨ (Rect.block (s := S32x64) S32x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x512.size a ≤ S64x512.size a
  hwx3_3 : ∀ i : grid3.Coords, EltTy.bits .f32 = 32 ∨ (Rect.block (s := S64x512) S64x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x512.size a ≤ S1x512.size a
  hwx3_4 : ∀ i : grid3.Coords, EltTy.bits .f32 = 32 ∨ (Rect.block (s := S1x512) S1x512.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x512.size a ≤ S50000x512.size a
  hwx3_5 : ∀ i : grid3.Coords, EltTy.bits .f32 = 32 ∨ (Rect.block (s := S50000x512) S5000x512.size (cc3_transform_5 i) (hinb3_5 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def dot_S2000x512_S512x64_S2000x64_1_0_0_1_n_n : DotDims S2000x512 S512x64 S2000x64 where
  lhsContracting := [1]
  rhsContracting := [0]
  lhsNonContracting := [0]
  rhsNonContracting := [1]
  lhsBatch := []
  rhsBatch := []
  wf := dot_S2000x512_S512x64_S2000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x512_S5000x512_1_0_0_1_n_n : DotDims S5000x64 S64x512 S5000x512 where
  lhsContracting := [1]
  rhsContracting := [0]
  lhsNonContracting := [0]
  rhsNonContracting := [1]
  lhsBatch := []
  rhsBatch := []
  wf := dot_S5000x64_S64x512_S5000x512_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v35) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v37) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v37) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S32x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg8) S64x512.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x512.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v40) S5000x512.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S32x64 : Shape := ⟨2, ![32, 64]⟩
abbrev S64x512 : Shape := ⟨2, ![64, 512]⟩
abbrev S512 : Shape := ⟨1, ![512]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x64 : Shape := ⟨2, ![50000, 64]⟩
abbrev S1650000x64 : Shape := ⟨2, ![1650000, 64]⟩
abbrev S1x64 : Shape := ⟨2, ![1, 64]⟩
abbrev S50000x32 : Shape := ⟨2, ![50000, 32]⟩
abbrev S1650000x32 : Shape := ⟨2, ![1650000, 32]⟩
abbrev S1x32 : Shape := ⟨2, ![1, 32]⟩
abbrev S1x512 : Shape := ⟨2, ![1, 512]⟩

abbrev nBuf : Space → Nat
  | .hbm => 108
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S512x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S64x512, .f32⟩
  | .hbm, ⟨9, _⟩ => ⟨S512, .f32⟩
  | .hbm, ⟨10, _⟩ => ⟨S50000, .i32⟩
  | .hbm, ⟨11, _⟩ => ⟨S1x1600000, .i32⟩
  | .hbm, ⟨12, _⟩ => ⟨S1600000, .i32⟩
  | .hbm, ⟨13, _⟩ => ⟨S1650000, .i32⟩
  | .hbm, ⟨14, _⟩ => ⟨S1x1600000, .i32⟩
  | .hbm, ⟨15, _⟩ => ⟨S1600000, .i32⟩
  | .hbm, ⟨16, _⟩ => ⟨S1650000, .i32⟩
  | .hbm, ⟨17, _⟩ => ⟨S_, .f32⟩
  | .hbm, ⟨18, _⟩ => ⟨S1650000, .f32⟩
  | .hbm, ⟨19, _⟩ => ⟨S_, .f32⟩
  | .hbm, ⟨20, _⟩ => ⟨S50000, .f32⟩
  | .hbm, ⟨21, _⟩ => ⟨S1650000x1, .i32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S1650000, .i32⟩
  | .hbm, ⟨26, _⟩ => ⟨S1650000, .i1⟩
  | .hbm, ⟨27, _⟩ => ⟨S_, .i32⟩
  | .hbm, ⟨28, _⟩ => ⟨S1650000, .i32⟩
  | .hbm, ⟨29, _⟩ => ⟨S1650000, .i32⟩
  | .hbm, ⟨30, _⟩ => ⟨S1650000, .i32⟩
  | .hbm, ⟨31, _⟩ => ⟨S1650000x1, .i32⟩
  | .hbm, ⟨32, _⟩ => ⟨S1650000, .f32⟩
  | .hbm, ⟨33, _⟩ => ⟨S_, .i32⟩
  | .hbm, ⟨34, _⟩ => ⟨S1650000, .i32⟩
  | .hbm, ⟨35, _⟩ => ⟨S1650000, .i1⟩
  | .hbm, ⟨36, _⟩ => ⟨S_, .i32⟩
  | .hbm, ⟨37, _⟩ => ⟨S1650000, .i32⟩
  | .hbm, ⟨38, _⟩ => ⟨S1650000, .i32⟩
  | .hbm, ⟨39, _⟩ => ⟨S1650000, .i32⟩
  | .hbm, ⟨40, _⟩ => ⟨S1650000x1, .i32⟩
  | .hbm, ⟨41, _⟩ => ⟨S1650000, .f32⟩
  | .hbm, ⟨42, _⟩ => ⟨S1650000, .f32⟩
  | .hbm, ⟨43, _⟩ => ⟨S50000x64, .f32⟩
  | .hbm, ⟨44, _⟩ => ⟨S_, .i32⟩
  | .hbm, ⟨45, _⟩ => ⟨S1650000, .i32⟩
  | .hbm, ⟨46, _⟩ => ⟨S1650000, .i1⟩
  | .hbm, ⟨47, _⟩ => ⟨S_, .i32⟩
  | .hbm, ⟨48, _⟩ => ⟨S1650000, .i32⟩
  | .hbm, ⟨49, _⟩ => ⟨S1650000, .i32⟩
  | .hbm, ⟨50, _⟩ => ⟨S1650000, .i32⟩
  | .hbm, ⟨51, _⟩ => ⟨S1650000x1, .i32⟩
  | .hbm, ⟨52, _⟩ => ⟨S1650000x64, .f32⟩
  | .hbm, ⟨53, _⟩ => ⟨S1650000x1, .f32⟩
  | .hbm, ⟨54, _⟩ => ⟨S1650000x64, .f32⟩
  | .hbm, ⟨55, _⟩ => ⟨S1650000x64, .f32⟩
  | .hbm, ⟨56, _⟩ => ⟨S_, .f32⟩
  | .hbm, ⟨57, _⟩ => ⟨S50000x64, .f32⟩
  | .hbm, ⟨58, _⟩ => ⟨S1650000x1, .i32⟩
  | .hbm, ⟨59, _⟩ => ⟨S50000x64, .f32⟩
  | .hbm, ⟨60, _⟩ => ⟨S1x64, .f32⟩
  | .hbm, ⟨61, _⟩ => ⟨S50000x64, .f32⟩
  | .hbm, ⟨62, _⟩ => ⟨S50000x64, .f32⟩
  | .hbm, ⟨63, _⟩ => ⟨S_, .f32⟩
  | .hbm, ⟨64, _⟩ => ⟨S50000x64, .f32⟩
  | .hbm, ⟨65, _⟩ => ⟨S50000x64, .f32⟩
  | .hbm, ⟨66, _⟩ => ⟨S50000x32, .f32⟩
  | .hbm, ⟨67, _⟩ => ⟨S_, .i32⟩
  | .hbm, ⟨68, _⟩ => ⟨S1650000, .i32⟩
  | .hbm, ⟨69, _⟩ => ⟨S1650000, .i1⟩
  | .hbm, ⟨70, _⟩ => ⟨S_, .i32⟩
  | .hbm, ⟨71, _⟩ => ⟨S1650000, .i32⟩
  | .hbm, ⟨72, _⟩ => ⟨S1650000, .i32⟩
  | .hbm, ⟨73, _⟩ => ⟨S1650000, .i32⟩
  | .hbm, ⟨74, _⟩ => ⟨S1650000x1, .i32⟩
  | .hbm, ⟨75, _⟩ => ⟨S1650000x32, .f32⟩
  | .hbm, ⟨76, _⟩ => ⟨S1650000x1, .f32⟩
  | .hbm, ⟨77, _⟩ => ⟨S1650000x32, .f32⟩
  | .hbm, ⟨78, _⟩ => ⟨S1650000x32, .f32⟩
  | .hbm, ⟨79, _⟩ => ⟨S_, .f32⟩
  | .hbm, ⟨80, _⟩ => ⟨S50000x32, .f32⟩
  | .hbm, ⟨81, _⟩ => ⟨S1650000x1, .i32⟩
  | .hbm, ⟨82, _⟩ => ⟨S50000x32, .f32⟩
  | .hbm, ⟨83, _⟩ => ⟨S1x32, .f32⟩
  | .hbm, ⟨84, _⟩ => ⟨S50000x32, .f32⟩
  | .hbm, ⟨85, _⟩ => ⟨S50000x32, .f32⟩
  | .hbm, ⟨86, _⟩ => ⟨S_, .f32⟩
  | .hbm, ⟨87, _⟩ => ⟨S50000x32, .f32⟩
  | .hbm, ⟨88, _⟩ => ⟨S50000x32, .f32⟩
  | .hbm, ⟨89, _⟩ => ⟨S50000x64, .f32⟩
  | .hbm, ⟨90, _⟩ => ⟨S1x64, .f32⟩
  | .hbm, ⟨91, _⟩ => ⟨S50000x64, .f32⟩
  | .hbm, ⟨92, _⟩ => ⟨S50000x64, .f32⟩
  | .hbm, ⟨93, _⟩ => ⟨S_, .f32⟩
  | .hbm, ⟨94, _⟩ => ⟨S50000x64, .f32⟩
  | .hbm, ⟨95, _⟩ => ⟨S50000x64, .f32⟩
  | .hbm, ⟨96, _⟩ => ⟨S50000x512, .f32⟩
  | .hbm, ⟨97, _⟩ => ⟨S1x512, .f32⟩
  | .hbm, ⟨98, _⟩ => ⟨S50000x512, .f32⟩
  | .hbm, ⟨99, _⟩ => ⟨S50000x512, .f32⟩
  | .hbm, ⟨100, _⟩ => ⟨S50000x512, .f32⟩
  | .hbm, ⟨101, _⟩ => ⟨S50000x512, .f32⟩
  | .hbm, ⟨102, _⟩ => ⟨S_, .f32⟩
  | .hbm, ⟨103, _⟩ => ⟨S50000x512, .f32⟩
  | .hbm, ⟨104, _⟩ => ⟨S50000x512, .f32⟩
  | .hbm, ⟨105, _⟩ => ⟨S_, .f32⟩
  | .hbm, ⟨106, _⟩ => ⟨S50000x512, .f32⟩
  | .hbm, ⟨107, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_c_7 : Ref sig .tc := ⟨.hbm, 67, rfl⟩
abbrev main_v46 : Ref sig .tc := ⟨.hbm, 68, rfl⟩
abbrev main_v47 : Ref sig .tc := ⟨.hbm, 69, rfl⟩
abbrev main_c_8 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_call1_cst : Ref sig .tc := ⟨.hbm, 86, rfl⟩
abbrev main_call1_v0 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_call2_cst : Ref sig .tc := ⟨.hbm, 93, rfl⟩
abbrev main_call2_v0 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_10 : Ref sig .tc := ⟨.hbm, 102, rfl⟩
abbrev main_v74 : Ref sig .tc := ⟨.hbm, 103, rfl⟩
abbrev main_v75 : Ref sig .tc := ⟨.hbm, 104, rfl⟩
abbrev main_cst_11 : Ref sig .tc := ⟨.hbm, 105, rfl⟩
abbrev main_v76 : Ref sig .tc := ⟨.hbm, 106, rfl⟩
abbrev main_v77 : Ref sig .tc := ⟨.hbm, 107, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S1650000x1_S1650000x32_0_1 : S1650000x1.BroadcastsInDim S1650000x32 (![0, 1] : Fin 2 → Fin S1650000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S512_S1x512_1 : S512.BroadcastsInDim S1x512 (![1] : Fin 1 → Fin S1x512.rank)
  bcast_S1x512_S50000x512_0_1 : S1x512.BroadcastsInDim S50000x512 (![0, 1] : Fin 2 → Fin S50000x512.rank)
  bcast_S_S50000x512 : S_.BroadcastsInDim S50000x512 (![] : Fin 0 → Fin S50000x512.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x512_S512x64_S50000x64_1_0_0_1_n_n_wf : DotDims.WF S50000x512 S512x64 S50000x64 [1] [0] [0] [1] [] []
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  dot_S50000x64_S64x32_S50000x32_1_0_0_1_n_n_wf : DotDims.WF S50000x64 S64x32 S50000x32 [1] [0] [0] [1] [] []
  gather_S50000x32_S1650000x1_S1650000x32_1_0_n_n_0_1_132_wf : GatherDims.WF S50000x32 S1650000x1 S1650000x32 [1] [0] [] [0] [] 1 ![1, 32]
  scatter_S50000x32_S1650000x1_S1650000x32_1_0_0_1_wf : ScatterDims.WF S50000x32 S1650000x1 S1650000x32 [1] [0] [0] 1
  dot_S50000x32_S32x64_S50000x64_1_0_0_1_n_n_wf : DotDims.WF S50000x32 S32x64 S50000x64 [1] [0] [0] [1] [] []
  dot_S50000x64_S64x512_S50000x512_1_0_0_1_n_n_wf : DotDims.WF S50000x64 S64x512 S50000x512 [1] [0] [0] [1] [] []

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x512_S512x64_S50000x64_1_0_0_1_n_n : DotDims S50000x512 S512x64 S50000x64 where
  lhsContracting := [1]
  rhsContracting := [0]
  lhsNonContracting := [0]
  rhsNonContracting := [1]
  lhsBatch := []
  rhsBatch := []
  wf := dot_S50000x512_S512x64_S50000x64_1_0_0_1_n_n_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S1650000x1_S1650000x32_1_0_n_n_0_1_132 : GatherDims S50000x32 S1650000x1 S1650000x32 where
  offsetDims := [1]
  collapsedSliceDims := [0]
  operandBatchingDims := []
  startIndicesBatchingDims := []
  startIndexMap := [0]
  indexVectorDim := 1
  sliceSizes := ![1, 32]
  wf := gather_S50000x32_S1650000x1_S1650000x32_1_0_n_n_0_1_132_wf
def scatter_S50000x32_S1650000x1_S1650000x32_1_0_0_1 : ScatterDims S50000x32 S1650000x1 S1650000x32 where
  updateWindowDims := [1]
  insertedWindowDims := [0]
  scatterDimsToOperandDims := [0]
  indexVectorDim := 1
  wf := scatter_S50000x32_S1650000x1_S1650000x32_1_0_0_1_wf
def dot_S50000x32_S32x64_S50000x64_1_0_0_1_n_n : DotDims S50000x32 S32x64 S50000x64 where
  lhsContracting := [1]
  rhsContracting := [0]
  lhsNonContracting := [0]
  rhsNonContracting := [1]
  lhsBatch := []
  rhsBatch := []
  wf := dot_S50000x32_S32x64_S50000x64_1_0_0_1_n_n_wf
def dot_S50000x64_S64x512_S50000x512_1_0_0_1_n_n : DotDims S50000x64 S64x512 S50000x512 where
  lhsContracting := [1]
  rhsContracting := [0]
  lhsNonContracting := [0]
  rhsNonContracting := [1]
  lhsBatch := []
  rhsBatch := []
  wf := dot_S50000x64_S64x512_S50000x512_1_0_0_1_n_n_wf

class Facts : Prop extends Facts₀ where

variable [Facts]
-- ==== Proof.KernelRun.lean ====
/-
  The kernel program's run with its result named.

  The program is four kernel launches among stretches of host operations. Its run from any memory ends with every
  buffer that outlives the launches at the contents obtained by folding the stretches and the launches' write-backs
  over the launch memory (the generated boundary contents W0 … W8); in particular the result buffer ends at the last
  boundary's contents there, and the ten argument buffers end as launched.
-/
import proofs.«113988_j31370441130067_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents, and the arguments are as launched. -/
theorem run_result : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.RunV

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.LibColumn.lean ====
/-
  Column forms of the layout operations, read at an index written by coordinates.

  A sum along the rows of an `[a, b]` array taken with the reduced axis kept leaves an `[a]` vector that is
  re-laid as an `[a, 1]` column and then spread back over the `b` columns. These are the two readings that
  step needs: the column at `(i, u)` is the vector at `i`, and the spread column at `(p, c)` is the column at
  `(p, 0)`, whatever the extents. They complement the row forms (`[a] → [1, a]`, `[1, b] → [a, b]`) of the
  library's layout lemmas.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Region0.lean ====
/-
  The first launch: the scaled projection, as one function of the arrays the launch finds.

  The launch tiles the 50000 rows into 25 blocks of 2000. At a block the body multiplies the block of the features
  (2000×512) by the whole weight matrix (512×64) and scales row p of the product by entry (p, 0) of the block of the
  factor column (2000×1). Since row p of block t is row 2000·t + p of the arrays, what the launch leaves in its output
  array is, at (i, c), the sum over k of features (i, k) · weights (k, c), times the factor column at (i, 0).
-/
import proofs.«113988_j31370441130067_2_alg».proof.Proof.Gen.KernelIdeal.Frame
import proofs.«113988_j31370441130067_2_alg».proof.Proof.LibPlainMatmul
import proofs.«113988_j31370441130067_2_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Reg0

open Cert.KernelIdeal Cert.KernelIdeal.Gen

theorem hz : (![0, 0] : Fin 2 → Nat) = fun _ => 0 := funext fun a => by fin_cases a <;> rfl

/-! ## The body's product, entry by entry -/

abbrev D0 := dot_S2000x512_S512x64_S2000x64_1_0_0_1_n_n

theorem d0_l0 (i : S2000x64.Idx) (q : D0.contr.Idx) : (D0.lhsIdx i q 0).val = (i 0).val := by
  unfold DotDims.lhsIdx
  rw [dif_neg (show ¬(0 : Fin S2000x512.rank) ∈ D0.lhsBatch by decide), dif_pos (show (0 : Fin S2000x512.rank) ∈ D0.lhsNonContracting by decide)]
  rfl
theorem d0_l1 (i : S2000x64.Idx) (q : D0.contr.Idx) : (D0.lhsIdx i q 1).val = (q ⟨0, by decide⟩).val :=
  D0.lhsIdx_val_of_single rfl i q
theorem d0_r0 (i : S2000x64.Idx) (q : D0.contr.Idx) : (D0.rhsIdx i q 0).val = (q ⟨0, by decide⟩).val :=
  D0.rhsIdx_val_of_single rfl i q
theorem d0_r1 (i : S2000x64.Idx) (q : D0.contr.Idx) : (D0.rhsIdx i q 1).val = (i 1).val := by
  unfold DotDims.rhsIdx
  rw [dif_neg (show ¬(1 : Fin S512x64.rank) ∈ D0.rhsBatch by decide), dif_pos (show (1 : Fin S512x64.rank) ∈ D0.rhsNonContracting by decide)]
  rfl

/-- What the body stores at (p, q) of its block: row p of the feature block against column q of the weights, times the
    factor column's entry of row p. -/
theorem pay_apply (x0 : Vec Ideal S2000x512 .f32) (x1 : Vec Ideal S512x64 .f32) (x2 : Vec Ideal S2000x1 .f32)
    (p : Fin 2000) (q : Fin 64) :
    k0_pay1 x0 x1 x2 (ix2 p q) = (∑ k : Fin 512, x0 (ix2 p k) * x1 (ix2 k q)) * x2 (ix2 p (0 : Fin 1)) := by
  unfold k0_pay1
  refine (mulf_apply _ _ _).trans ?_
  refine congrArg₂ (· * ·) ?_ ?_
  · refine (Cert.LibPlainMatmul.matmul_zero_ix2 D0 none rfl rfl d0_l0 d0_l1 d0_r0 d0_r1 _ _ p q).trans ?_
    rfl
  · refine (Cert.LibColumn.broadcastTo_a1_ab_apply _ broadcasts_S2000x1_S2000x64 p q).trans ?_
    exact congrFun (shapeCast_self _ _) _

/-! ## The blocks of the arrays -/

variable (V : (c : Dev nD) → (b : Ref sig .tc) → Buf (Elt Ideal) ((c : Thread nD τ).loc b))

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The feature block at point t is rows 2000·t … of the feature array. -/
theorem blk_x (c : Dev nD) (t : Fin cfg0.N) (x : S2000x512.Idx) (k : S50000x512.Idx)
    (hk0 : (k 0).val = 2000 * t.val + (x 0).val) (hk1 : (k 1).val = (x 1).val) :
    (iblk0 V c 0 t : Vec Ideal S2000x512 .f32) x = (V c main_arg0 : S50000x512.Idx → EReal) k := by
  obtain ⟨e0, e1, -⟩ := idx_facts t
  unfold iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 512 + 1 * (x 1).val = (k 1).val; rw [e1, hk1]; omega

/-- The weight block at every point is the whole weight array. -/
theorem blk_w (c : Dev nD) (t : Fin cfg0.N) (x : S512x64.Idx) :
    (iblk0 V c 1 t : Vec Ideal S512x64 .f32) x = (V c main_arg2 : S512x64.Idx → EReal) x := by
  obtain ⟨-, -, e0, e1, -⟩ := idx_facts t
  unfold iblk0
  rw [View.read_apply]
  show V c main_arg2 _ = V c main_arg2 _
  congr 1
  funext a
  apply Fin.ext
  match a with
  | ⟨0, _⟩ => show win0_1.index t 0 * 512 + 1 * (x 0).val = (x 0).val; rw [e0]; omega
  | ⟨1, _⟩ => show win0_1.index t 1 * 64 + 1 * (x 1).val = (x 1).val; rw [e1]; omega

/-- The factor block at point t is rows 2000·t … of the factor column. -/
theorem blk_d (c : Dev nD) (t : Fin cfg0.N) (x : S2000x1.Idx) (k : S50000x1.Idx)
    (hk0 : (k 0).val = 2000 * t.val + (x 0).val) (hk1 : (k 1).val = (x 1).val) :
    (iblk0 V c 2 t : Vec Ideal S2000x1 .f32) x = (V c main_v12 : S50000x1.Idx → EReal) k := by
  obtain ⟨-, -, -, -, e0, e1, -⟩ := idx_facts t
  unfold iblk0
  rw [View.read_apply]
  show V c main_v12 _ = V c main_v12 _
  congr 1
  funext a
  apply Fin.ext
  match a with
  | ⟨0, _⟩ => show win0_2.index t 0 * 2000 + 1 * (x 0).val = (k 0).val; rw [e0, hk0]; omega
  | ⟨1, _⟩ => show win0_2.index t 1 * 1 + 1 * (x 1).val = (k 1).val; rw [e1, hk1]; omega

/-! ## The output array -/

/-- The three arrays the launch reads, as it finds them: the features, the weights, the factor column. -/
abbrev aX (c : Dev nD) : S50000x512.Idx → EReal := V c main_arg0
abbrev aW (c : Dev nD) : S512x64.Idx → EReal := V c main_arg2
abbrev aD (c : Dev nD) : S50000x1.Idx → EReal := V c main_v12

/-- The launch's output as one function of the arrays it finds. -/
def out (c : Dev nD) : S50000x64.Idx → EReal := fun i =>
  (∑ k : Fin 512, aX V c (ix2 ⟨(i 0).val, idx2_lt0 i⟩ k) * aW V c (ix2 k ⟨(i 1).val, idx2_lt1 i⟩))
    * aD V c (ix2 ⟨(i 0).val, idx2_lt0 i⟩ (0 : Fin 1))

theorem out_apply (c : Dev nD) (p : Fin 50000) (q : Fin 64) :
    out V c (ix2 p q) = (∑ k : Fin 512, aX V c (ix2 p k) * aW V c (ix2 k q)) * aD V c (ix2 p (0 : Fin 1)) := rfl

/-- What point t writes back is block t of that function. -/
theorem flushed_eq (c : Dev nD) (t : Fin cfg0.N) :
    (dat0 V c).flushed 3 t = ((cfg0.win 3).blk t).view.read (Elt Ideal) (out V c) := by
  show (cfg0.win 3).cut (grid0.coords t) ((dat0 V c).after 3 t) = _
  rw [after0_3]
  unfold out0_3
  rw [View.canon_unit_zero hz]
  simp only [View.ld_unit_zero (S := S2000x512) hz, View.ld_unit_zero (S := S512x64) hz, View.ld_unit_zero (S := S2000x1) hz]
  obtain ⟨-, -, -, -, -, -, e0, e1⟩ := idx_facts t
  have hN : cfg0.N = 25 := N_0
  have ht := t.isLt
  funext j
  obtain ⟨p, q, rfl⟩ : ∃ (p : Fin 2000) (q : Fin 64), j = ix2 p q := ⟨j 0, j 1, eq_ix2 j⟩
  show k0_pay1 (iblk0 V c 0 t) (iblk0 V c 1 t) (iblk0 V c 2 t) (ix2 p q) = out V c (((cfg0.win 3).blk t).view.emb (ix2 p q))
  have hemb : ((cfg0.win 3).blk t).view.emb (ix2 p q) = ix2 (⟨2000 * t.val + p.val, by omega⟩ : Fin 50000) q := by
    funext a
    apply Fin.ext
    match a with
    | ⟨0, _⟩ => show win0_3.index t 0 * 2000 + 1 * p.val = 2000 * t.val + p.val; rw [e0]; omega
    | ⟨1, _⟩ => show win0_3.index t 1 * 64 + 1 * q.val = q.val; rw [e1]; omega
  rw [hemb, out_apply]
  refine (pay_apply _ _ _ p q).trans ?_
  refine congrArg₂ (· * ·) (Finset.sum_congr rfl fun k _ => congrArg₂ (· * ·) ?_ ?_) ?_
  · exact blk_x V c t (ix2 p k) _ rfl rfl
  · exact blk_w V c t (ix2 k q)
  · exact blk_d V c t (ix2 p 0) _ rfl rfl

theorem mem_blk (t : Fin cfg0.N) (i : S50000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v13).slice (win0_3.rect t)).set ↔ _
  rw [View.set_slice_whole, Rect.mem_set_unit]
  exact Iff.rfl

/-- The output array after the launch. -/
theorem final (c : Dev nD) : (dat0 V c).arrAt 3 cfg0.N = out V c :=
  (dat0 V c).arrAt_eq_of_cover 3 (out V c) (fun t _ => flushed_eq V c t) fun i => by
    have hN : cfg0.N = 25 := N_0
    have hi0 : (i 0).val < 50000 := (i 0).isLt
    have hi1 : (i 1).val < 64 := (i 1).isLt
    let t : Fin cfg0.N := ⟨(i 0).val / 2000, by rw [hN]; omega⟩
    obtain ⟨-, -, -, -, -, -, e0, e1⟩ := idx_facts t
    refine ⟨t, flush0_3 t, ?_⟩
    rw [mem_blk]
    intro a
    match a with
    | ⟨0, _⟩ => show win0_3.index t 0 * 2000 ≤ (i 0).val ∧ (i 0).val < win0_3.index t 0 * 2000 + 2000; rw [e0]; show (i 0).val / 2000 * 2000 ≤ (i 0).val ∧ (i 0).val < (i 0).val / 2000 * 2000 + 2000; omega
    | ⟨1, _⟩ => show win0_3.index t 1 * 64 ≤ (i 1).val ∧ (i 1).val < win0_3.index t 1 * 64 + 64; rw [e1]; omega

end Cert.KernelIdeal.Reg0

end
-- ==== Proof.LibIndexRows.lean ====
/-
  Rows taken and rows added at a column of row indices.

  A table with N rows is read at R places named by an R×1 column of signed integers: either whole
  rows of an N×D matrix, or single entries of a length-N vector. Both reads clamp the signed index
  into the range 0 … N−1 in the same way, so a row read and an entry read at the same column name
  the same row. In the other direction, R rows of an R×D array are added into an N×D array at the
  rows a column names: an update row lands, if at all, exactly on the row whose number is its index
  read as a signed integer, and keeps its column. Two small facts about 32-bit words close the file:
  adding N to the negative indices leaves a non-negative index as it is, and the clamp does nothing
  to an index already below N.
-/
import Idealize.ShloMosaic.Lib.ValueIdx

noncomputable section

namespace Cert.LibIndexRows

open Idealize.ShloMosaic Idealize.ShloMosaic.ValueIdx

variable {α : Type}

/-! ## Whole rows of a matrix, taken at a column of row indices -/

/-- The dimension numbers of "take row idx[e, 0] of an N×D matrix, for each e below R": the row axis is
    collapsed and is the one the index addresses, the column axis is carried over whole. -/
abbrev rowGatherDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Entry (e, j) of the rows taken is entry (r, j) of the matrix, where r is the signed value of idx[e, 0]
    brought into 0 … N−1: negative values go to 0, values of N or more to N−1. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (e : Fin R) (j : Fin D) :
    Host.gather (rowGatherDims N D R wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowGatherDims N D R wf).start (ix2 e j) idx 0 + (rowGatherDims N D R wf).batchCoord (ix2 e j) 0
      + (rowGatherDims N D R wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N D R wf).startIndexMap from List.mem_singleton.mpr rfl)]
    have hsi : (rowGatherDims N D R wf).siIdx (ix2 e j) ⟨List.idxOf (0 : Fin 2) (rowGatherDims N D R wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N D R wf).start (ix2 e j) idx 1 + (rowGatherDims N D R wf).batchCoord (ix2 e j) 1
      + (rowGatherDims N D R wf).offCoord (ix2 e j) 1 = j.val
    have h1 : (1 : Fin 2) ∉ (rowGatherDims N D R wf).startIndexMap :=
      fun h => absurd (List.mem_singleton.mp h) (show ¬ (1 : Fin 2) = 0 by decide)
    have hk : (1 : Fin 2) ∈ (rowGatherDims N D R wf).sKept :=
      (GatherDims.mem_sKept _ _).mpr ⟨fun h => absurd (List.mem_singleton.mp h) (show ¬ (1 : Fin 2) = 0 by decide), List.not_mem_nil⟩
    rw [GatherDims.batchCoord_eq_zero _ _ _ List.not_mem_nil]
    unfold GatherDims.start GatherDims.offCoord
    rw [dif_neg h1, dif_pos hk]
    simp only [Nat.add_zero, Nat.zero_add]
    rfl

/-! ## Single entries of a vector, taken at a column of indices -/

/-- The dimension numbers of "take entry idx[e, 0] of a length-N vector, for each e below R": the vector's one
    axis is collapsed and is the one the index addresses; nothing is carried over. -/
abbrev entryGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Entry e of the entries taken is entry r of the vector, where r is the signed value of idx[e, 0] brought
    into 0 … N−1 — the same r as for a row of a matrix with N rows read at the same column. -/
theorem gather_entries_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (entryGatherDims N R wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (entryGatherDims N R wf).start (ix1 e) idx 0 + (entryGatherDims N R wf).batchCoord (ix1 e) 0
    + (entryGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGatherDims N R wf).startIndexMap from List.mem_singleton.mpr rfl)]
  have hsi : (entryGatherDims N R wf).siIdx (ix1 e) ⟨List.idxOf (0 : Fin 1) (entryGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Whole rows added into a matrix at a column of row indices -/

/-- The dimension numbers of "add row e of an R×D array into row idx[e, 0] of an N×D matrix": the update's
    column axis is its window and goes to the matrix's column axis, the matrix's row axis is the one the index
    addresses. -/
abbrev rowScatterDims (N D R : Nat)
    (wf : ScatterDims.WF ⟨2, ![N, D]⟩ ⟨2, ![R, 1]⟩ ⟨2, ![R, D]⟩ [1] [0] [0] 1) :
    ScatterDims ⟨2, ![N, D]⟩ ⟨2, ![R, 1]⟩ ⟨2, ![R, D]⟩ where
  updateWindowDims := [1]
  insertedWindowDims := [0]
  scatterDimsToOperandDims := [0]
  indexVectorDim := 1
  wf := wf

/-- On the row axis the window of update entry (e, j') starts at the signed value of idx[e, 0] … -/
theorem rowScatter_start_row {N D R w : Nat} (wf : ScatterDims.WF ⟨2, ![N, D]⟩ ⟨2, ![R, 1]⟩ ⟨2, ![R, D]⟩ [1] [0] [0] 1)
    (idx : IVec ⟨2, ![R, 1]⟩ w) (e : Fin R) (j' : Fin D) :
    (rowScatterDims N D R wf).start (ix2 e j') idx 0 = (idx (ix2 e 0)).toInt := by
  unfold ScatterDims.start
  rw [dif_pos (show (0 : Fin 2) ∈ (rowScatterDims N D R wf).scatterDimsToOperandDims from List.mem_singleton.mpr rfl)]
  have hsi : (rowScatterDims N D R wf).siIdx (ix2 e j') ⟨List.idxOf (0 : Fin 2) (rowScatterDims N D R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and has no extent there (the row axis is not a window axis); … -/
theorem rowScatter_window_row {N D R : Nat} (wf : ScatterDims.WF ⟨2, ![N, D]⟩ ⟨2, ![R, 1]⟩ ⟨2, ![R, D]⟩ [1] [0] [0] 1)
    (e : Fin R) (j' : Fin D) : (rowScatterDims N D R wf).window (ix2 e j') 0 = 0 := by
  unfold ScatterDims.window
  rw [dif_neg]
  intro h
  have h' : (0 : Fin 2) ∉ [(0 : Fin 2)] := (List.mem_filter.mp h).2 |> fun h => by simpa using h
  exact h' (List.mem_singleton.mpr rfl)

/-- … on the column axis it starts at 0 (no index addresses that axis) … -/
theorem rowScatter_start_col {N D R w : Nat} (wf : ScatterDims.WF ⟨2, ![N, D]⟩ ⟨2, ![R, 1]⟩ ⟨2, ![R, D]⟩ [1] [0] [0] 1)
    (idx : IVec ⟨2, ![R, 1]⟩ w) (e : Fin R) (j' : Fin D) :
    (rowScatterDims N D R wf).start (ix2 e j') idx 1 = 0 := by
  unfold ScatterDims.start
  rw [dif_neg]
  exact fun h => absurd (List.mem_singleton.mp h) (show ¬ (1 : Fin 2) = 0 by decide)

/-- … and the window coordinate there is the update's own column j'. -/
theorem rowScatter_window_col {N D R : Nat} (wf : ScatterDims.WF ⟨2, ![N, D]⟩ ⟨2, ![R, 1]⟩ ⟨2, ![R, D]⟩ [1] [0] [0] 1)
    (e : Fin R) (j' : Fin D) : (rowScatterDims N D R wf).window (ix2 e j') 1 = j'.val := by
  unfold ScatterDims.window
  have hk : (1 : Fin 2) ∈ (rowScatterDims N D R wf).sKept := by
    refine List.mem_filter.mpr ⟨List.mem_finRange _, ?_⟩
    simpa using (show ¬ (1 : Fin 2) = 0 by decide)
  rw [dif_pos hk]
  rfl

/-- WHERE AN UPDATE ROW LANDS. If entry (e, j') of the updates lands on entry i of the matrix, then the row of i
    is the signed value of idx[e, 0] (which therefore lies in 0 … N−1) and the column of i is j'. -/
theorem rowScatter_resultIdx {N D R w : Nat} (wf : ScatterDims.WF ⟨2, ![N, D]⟩ ⟨2, ![R, 1]⟩ ⟨2, ![R, D]⟩ [1] [0] [0] 1)
    (idx : IVec ⟨2, ![R, 1]⟩ w) (e : Fin R) (j' : Fin D) (i : (⟨2, ![N, D]⟩ : Shape).Idx)
    (h : (rowScatterDims N D R wf).resultIdx? (ix2 e j') idx = some i) :
    (idx (ix2 e 0)).toInt = ((i 0).val : ℤ) ∧ (i 1).val = j'.val := by
  unfold ScatterDims.resultIdx? at h
  split at h
  · rename_i hin
    obtain rfl := Option.some.inj h
    have h0 := (hin 0).1
    rw [rowScatter_start_row, rowScatter_window_row] at h0
    refine ⟨?_, ?_⟩
    · show _ = (((rowScatterDims N D R wf).start (ix2 e j') idx 0 + ((rowScatterDims N D R wf).window (ix2 e j') 0 : ℕ) : ℤ).toNat : ℤ)
      rw [rowScatter_start_row, rowScatter_window_row]
      omega
    · show ((rowScatterDims N D R wf).start (ix2 e j') idx 1 + ((rowScatterDims N D R wf).window (ix2 e j') 1 : ℕ) : ℤ).toNat = j'.val
      rw [rowScatter_start_col, rowScatter_window_col]
      omega
  · exact absurd h (by simp)

/-- The row half alone: an update row lands only on the row its index names, read as a signed integer. -/
theorem rowScatter_resultIdx_row {N D R w : Nat} (wf : ScatterDims.WF ⟨2, ![N, D]⟩ ⟨2, ![R, 1]⟩ ⟨2, ![R, D]⟩ [1] [0] [0] 1)
    (idx : IVec ⟨2, ![R, 1]⟩ w) (e : Fin R) (j' : Fin D) (i : (⟨2, ![N, D]⟩ : Shape).Idx) :
    (rowScatterDims N D R wf).resultIdx? (ix2 e j') idx = some i → (idx (ix2 e 0)).toInt = ((i 0).val : ℤ) :=
  fun h => (rowScatter_resultIdx wf idx e j' i h).1

/-- The converse: when the signed value of idx[e, 0] is the number of a row r of the matrix, entry (e, j') of the
    updates does land, on entry (r, j'). -/
theorem rowScatter_resultIdx_of_row {N D R w : Nat} (wf : ScatterDims.WF ⟨2, ![N, D]⟩ ⟨2, ![R, 1]⟩ ⟨2, ![R, D]⟩ [1] [0] [0] 1)
    (idx : IVec ⟨2, ![R, 1]⟩ w) (e : Fin R) (j' : Fin D) (r : Fin N) (hr : (idx (ix2 e 0)).toInt = (r.val : ℤ)) :
    (rowScatterDims N D R wf).resultIdx? (ix2 e j') idx = some (ix2 r j') := by
  have hin : ∀ a, 0 ≤ (rowScatterDims N D R wf).start (ix2 e j') idx a + ((rowScatterDims N D R wf).window (ix2 e j') a : ℕ)
      ∧ (rowScatterDims N D R wf).start (ix2 e j') idx a + ((rowScatterDims N D R wf).window (ix2 e j') a : ℕ)
        < (((⟨2, ![N, D]⟩ : Shape).size a : ℕ) : ℤ) := by
    intro a
    match a with
    | ⟨0, _⟩ =>
      show 0 ≤ (rowScatterDims N D R wf).start (ix2 e j') idx 0 + ((rowScatterDims N D R wf).window (ix2 e j') 0 : ℕ)
        ∧ (rowScatterDims N D R wf).start (ix2 e j') idx 0 + ((rowScatterDims N D R wf).window (ix2 e j') 0 : ℕ) < ((N : ℕ) : ℤ)
      rw [rowScatter_start_row, rowScatter_window_row, hr]
      have := r.isLt
      omega
    | ⟨1, _⟩ =>
      show 0 ≤ (rowScatterDims N D R wf).start (ix2 e j') idx 1 + ((rowScatterDims N D R wf).window (ix2 e j') 1 : ℕ)
        ∧ (rowScatterDims N D R wf).start (ix2 e j') idx 1 + ((rowScatterDims N D R wf).window (ix2 e j') 1 : ℕ) < ((D : ℕ) : ℤ)
      rw [rowScatter_start_col, rowScatter_window_col]
      have := j'.isLt
      omega
  unfold ScatterDims.resultIdx?
  rw [dif_pos hin]
  congr 1
  funext a
  refine Fin.ext ?_
  match a with
  | ⟨0, _⟩ =>
    show ((rowScatterDims N D R wf).start (ix2 e j') idx 0 + ((rowScatterDims N D R wf).window (ix2 e j') 0 : ℕ) : ℤ).toNat = r.val
    rw [rowScatter_start_row, rowScatter_window_row, hr]
    omega
  | ⟨1, _⟩ =>
    show ((rowScatterDims N D R wf).start (ix2 e j') idx 1 + ((rowScatterDims N D R wf).window (ix2 e j') 1 : ℕ) : ℤ).toNat = j'.val
    rw [rowScatter_start_col, rowScatter_window_col]
    omega

/-! ## Single entries added into a vector at a column of indices -/

/-- The dimension numbers of "add entry e of a length-R array into entry idx[e, 0] of a length-N vector": no window,
    the vector's one axis is the one the index addresses. -/
abbrev entryScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- If entry e of the updates lands on entry i of the vector, then i is the signed value of idx[e, 0] (which
    therefore lies in 0 … N−1). -/
theorem entryScatter_resultIdx {N R w : Nat} (wf : ScatterDims.WF ⟨1, ![N]⟩ ⟨2, ![R, 1]⟩ ⟨1, ![R]⟩ [] [0] [0] 1)
    (idx : IVec ⟨2, ![R, 1]⟩ w) (e : Fin R) (i : (⟨1, ![N]⟩ : Shape).Idx)
    (h : (entryScatterDims N R wf).resultIdx? (ix1 e) idx = some i) :
    (idx (ix2 e 0)).toInt = ((i 0).val : ℤ) := by
  have hstart : (entryScatterDims N R wf).start (ix1 e) idx 0 = (idx (ix2 e 0)).toInt := by
    unfold ScatterDims.start
    rw [dif_pos (show (0 : Fin 1) ∈ (entryScatterDims N R wf).scatterDimsToOperandDims from List.mem_singleton.mpr rfl)]
    have hsi : (entryScatterDims N R wf).siIdx (ix1 e) ⟨List.idxOf (0 : Fin 1) (entryScatterDims N R wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hwin : (entryScatterDims N R wf).window (ix1 e) 0 = 0 := by
    unfold ScatterDims.window
    rw [dif_neg]
    intro hk
    have h' : (0 : Fin 1) ∉ [(0 : Fin 1)] := (List.mem_filter.mp hk).2 |> fun h => by simpa using h
    exact h' (List.mem_singleton.mpr rfl)
  unfold ScatterDims.resultIdx? at h
  split at h
  · rename_i hin
    obtain rfl := Option.some.inj h
    have h0 := (hin 0).1
    rw [hstart, hwin] at h0
    show _ = (((entryScatterDims N R wf).start (ix1 e) idx 0 + ((entryScatterDims N R wf).window (ix1 e) 0 : ℕ) : ℤ).toNat : ℤ)
    rw [hstart, hwin]
    omega
  · exact absurd h (by simp)

/-! ## Two facts about 32-bit indices -/

/-- Negative indices are wrapped by adding n to them; an index that is not negative is left as it is: the
    comparison "v < 0" (signed) is false, so the select keeps v. -/
theorem wrap_of_nonneg (v n : BitVec 32) (h : 0 ≤ v.toInt) :
    Scalar.select (IntOp.cmpi .slt v 0#32) (IntOp.addi v n) v = v := by
  have hs : v.slt 0#32 = false := by
    simp only [BitVec.slt, BitVec.toInt_zero]
    exact decide_eq_false (by omega)
  show Scalar.select (BitVec.ofBool (v.slt 0#32)) (IntOp.addi v n) v = v
  rw [hs]
  exact select_zero _ _

/-- The same with the sum written as the words' sum. -/
theorem wrap_of_nonneg' (v n : BitVec 32) (h : 0 ≤ v.toInt) :
    Scalar.select (IntOp.cmpi .slt v 0#32) (v + n) v = v := wrap_of_nonneg v n h

/-- The wrap on whole arrays, read at one place: where the array of zeros Z is 0 and the index I is not negative,
    "select (I < Z) (I + N) I" is I. -/
theorem wrap_apply_of_nonneg {s : Shape} (I Z N : IVec s 32) (i : s.Idx) (hZ : Z i = 0#32) (h : 0 ≤ (I i).toInt) :
    select (cmpi .slt I Z) (addi I N) I i = I i := by
  show Scalar.select (IntOp.cmpi .slt (I i) (Z i)) (IntOp.addi (I i) (N i)) (I i) = I i
  rw [hZ]
  exact wrap_of_nonneg _ _ h

/-- An index whose signed value is a natural number r below N is its own clamp into 0 … N−1. -/
theorem clamp_of_toInt_eq {v : BitVec 32} {r N : Nat} (hv : v.toInt = (r : ℤ)) (hr : r < N) :
    min v.toInt.toNat (N - 1) = r := by
  rw [hv, Int.toNat_natCast]
  omega

end Cert.LibIndexRows

end
-- ==== Proof.GcnSpec.lean ====
/-
  The mathematics of the two programs, over plain index types.

  A graph of 50000 nodes carries 1650000 messages (the given edges followed by one self-loop per node); message e goes
  from node src e to node dst e, both given as signed 32-bit words. A node's degree counts the messages whose target
  word, read signed, is its number; the normalising factor of a node is the inverse square root of its degree. One
  graph-convolution layer multiplies the features by a weight matrix, sends each node's row along its messages scaled
  by the factors of both ends, adds what arrives at each node, adds a bias and clips at zero.

  The reference scales every message by the product of the two factors. The kernel scales each row by its own node's
  factor before the rows are sent, and scales what arrives at a node by that node's factor afterwards. The two agree
  because all messages arriving at a node share that node's factor, which is a non-negative real (every node has its
  self-loop, so its degree is at least one), and multiplication by a non-negative real distributes over any sum of
  extended reals.
-/
import Idealize.ShloMosaic.PureOps.Ideal
import Idealize.ShloMosaic.PureOps.Ideal.Laws
import Idealize.ShloMosaic.Lib.ValueIdx
import proofs.«113988_j31370441130067_2_alg».proof.Proof.LibIndexRows

noncomputable section

namespace Cert.Gcn

open Idealize.ShloMosaic Idealize.ShloMosaic.ValueIdx
open scoped BigOperators

/-- A signed index word brought into 0 … 49999: negative words go to 0, words of 50000 or more to 49999. -/
def cl (v : BitVec 32) : Fin 50000 := ⟨min v.toInt.toNat (50000 - 1), by omega⟩

/-- A negative index word counts from the end: 50000 is added to it; other words are kept. -/
def wr (v : BitVec 32) : BitVec 32 := Scalar.select (IntOp.cmpi .slt v 0#32) (IntOp.addi v 50000#32) v

/-- A message whose target word is node i's number is read, after wrapping and clamping, at node i. -/
theorem cl_wr_of_hit {v : BitVec 32} {i : Fin 50000} (h : v.toInt = (i.val : ℤ)) : cl (wr v) = i := by
  have hw : wr v = v := Cert.LibIndexRows.wrap_of_nonneg v 50000#32 (by omega)
  rw [hw]
  exact Fin.ext (Cert.LibIndexRows.clamp_of_toInt_eq h i.isLt)

variable (s d : Fin 1650000 → BitVec 32)

/-- The degree of node i: one for every message whose target word is i. -/
def deg (i : Fin 50000) : EReal := 0 + ∑ e : Fin 1650000, if (d e).toInt = (i.val : ℤ) then (1 : EReal) else 0

/-- The normalising factor of node i. -/
def dis (i : Fin 50000) : EReal := Ideal.rsqrt (deg d i)

/-- The matrix product, entry by entry. -/
def mm {M K N : ℕ} (a : Fin M → Fin K → EReal) (b : Fin K → Fin N → EReal) (p : Fin M) (c : Fin N) : EReal :=
  ∑ k : Fin K, a p k * b k c

/-- What arrives at node i in the reference: every message into i carries its source's row scaled by both ends' factors. -/
def aggRef {D : ℕ} (hw : Fin 50000 → Fin D → EReal) (i : Fin 50000) (c : Fin D) : EReal :=
  0 + ∑ e : Fin 1650000, if (d e).toInt = (i.val : ℤ)
    then hw (cl (wr (s e))) c * (dis d (cl (wr (s e))) * dis d (cl (wr (d e)))) else 0

/-- What arrives at node i in the kernel: every message into i carries its source's (already scaled) row. -/
def aggKer {D : ℕ} (hws : Fin 50000 → Fin D → EReal) (i : Fin 50000) (c : Fin D) : EReal :=
  0 + ∑ e : Fin 1650000, if (d e).toInt = (i.val : ℤ) then hws (cl (wr (s e))) c else 0

/-- The kernel's scaled projection: the product's row i times node i's factor. -/
def pre {K D : ℕ} (h : Fin 50000 → Fin K → EReal) (W : Fin K → Fin D → EReal) (i : Fin 50000) (c : Fin D) : EReal :=
  mm h W i c * dis d i

/-- The kernel's finish of a layer: what arrived, times the node's factor, plus the bias, clipped at zero. -/
def post {D : ℕ} (agg : Fin 50000 → Fin D → EReal) (b : Fin D → EReal) (i : Fin 50000) (c : Fin D) : EReal :=
  max (agg i c * dis d i + b c) 0

/-- The reference's layer. -/
def layer {K D : ℕ} (h : Fin 50000 → Fin K → EReal) (W : Fin K → Fin D → EReal) (b : Fin D → EReal)
    (i : Fin 50000) (c : Fin D) : EReal :=
  max (aggRef s d (mm h W) i c + b c) 0

/-- The decoder: a dense layer clipped at zero, then a dense layer under the logistic function. -/
def dec (z : Fin 50000 → Fin 32 → EReal) (Wd1 : Fin 32 → Fin 64 → EReal) (bd1 : Fin 64 → EReal)
    (Wd2 : Fin 64 → Fin 512 → EReal) (bd2 : Fin 512 → EReal) (i : Fin 50000) (c : Fin 512) : EReal :=
  Ideal.logistic (mm (fun i c => max (mm z Wd1 i c + bd1 c) 0) Wd2 i c + bd2 c)

/-! ## The factor of a node is a non-negative real -/

/-- A sum of zeros and ones is a non-negative real. -/
theorem sum_ind_real {ι : Type} (t : Finset ι) (p : ι → Prop) [DecidablePred p] :
    ∃ r : ℝ, 0 ≤ r ∧ (∑ e ∈ t, if p e then (1 : EReal) else 0) = (r : EReal) := by
  classical
  induction t using Finset.induction_on with
  | empty => exact ⟨0, le_refl _, by simp⟩
  | insert a t ha ih =>
    obtain ⟨r, hr, e⟩ := ih
    rw [Finset.sum_insert ha, e]
    by_cases h : p a
    · refine ⟨1 + r, by linarith, ?_⟩
      rw [if_pos h, EReal.coe_add, EReal.coe_one]
    · refine ⟨r, hr, ?_⟩
      rw [if_neg h, zero_add]

/-- With a message into node i, its degree is a real number that is at least one. -/
theorem deg_real (i : Fin 50000) (hloop : ∃ e, (d e).toInt = (i.val : ℤ)) :
    ∃ r : ℝ, 1 ≤ r ∧ deg d i = (r : EReal) := by
  classical
  obtain ⟨e0, he0⟩ := hloop
  obtain ⟨r, hr, e⟩ := sum_ind_real (Finset.univ.erase e0) (fun e => (d e).toInt = (i.val : ℤ))
  refine ⟨1 + r, by linarith, ?_⟩
  unfold deg
  rw [zero_add, ← Finset.add_sum_erase _ _ (Finset.mem_univ e0), if_pos he0, e, EReal.coe_add, EReal.coe_one]

/-- So its factor is a non-negative real. -/
theorem dis_real (i : Fin 50000) (hloop : ∃ e, (d e).toInt = (i.val : ℤ)) :
    ∃ r : ℝ, 0 ≤ r ∧ dis d i = (r : EReal) := by
  obtain ⟨r, hr, e⟩ := deg_real d i hloop
  refine ⟨(Real.sqrt r)⁻¹, inv_nonneg.mpr (Real.sqrt_nonneg r), ?_⟩
  unfold dis
  rw [e, Ideal.rsqrt_coe, if_neg (by linarith), if_neg (by linarith)]

/-! ## A non-negative real factor moves inside a sum -/

theorem sum_mul_real {ι : Type} (t : Finset ι) (f : ι → EReal) (r : ℝ) (hr : 0 ≤ r) :
    (∑ e ∈ t, f e) * (r : EReal) = ∑ e ∈ t, f e * (r : EReal) := by
  classical
  induction t using Finset.induction_on with
  | empty => simp
  | insert a t ha ih =>
    rw [Finset.sum_insert ha, Finset.sum_insert ha,
      EReal.right_distrib_of_nonneg_of_ne_top (EReal.coe_nonneg.mpr hr) (EReal.coe_ne_top r), ih]

/-! ## The two arrangements of a layer agree -/

/-- Scaling the rows before they are sent and the arrivals afterwards is scaling every message by both factors. -/
theorem agg_eq (hloop : ∀ i : Fin 50000, ∃ e, (d e).toInt = (i.val : ℤ)) {D : ℕ}
    (hw : Fin 50000 → Fin D → EReal) (i : Fin 50000) (c : Fin D) :
    aggKer s d (fun j c => hw j c * dis d j) i c * dis d i = aggRef s d hw i c := by
  obtain ⟨r, hr, e⟩ := dis_real d i (hloop i)
  unfold aggKer aggRef
  rw [zero_add, zero_add, e, sum_mul_real _ _ r hr]
  refine Finset.sum_congr rfl fun m _ => ?_
  by_cases h : (d m).toInt = (i.val : ℤ)
  · rw [if_pos h, if_pos h, cl_wr_of_hit h, e, mul_assoc]
  · rw [if_neg h, if_neg h, zero_mul]

/-- A whole layer: the kernel's projection, sending and finish is the reference's layer. -/
theorem layer_eq (hloop : ∀ i : Fin 50000, ∃ e, (d e).toInt = (i.val : ℤ)) {K D : ℕ}
    (h : Fin 50000 → Fin K → EReal) (W : Fin K → Fin D → EReal) (b : Fin D → EReal) :
    post d (aggKer s d (pre d h W)) b = layer s d h W b := by
  funext i c
  unfold post layer
  rw [show pre d h W = fun j c => mm h W j c * dis d j from rfl, agg_eq s d hloop]

end Cert.Gcn

end
-- ==== Proof.LibScatterSum.lean ====
/-
  An accumulating scatter at a column of row indices, read at one entry.

  Rows (or single entries) of an update array are added into a table at the rows that an R×1 column of signed
  integers names. Read at one entry of the table, the result is that entry plus a plain sum over the R update
  rows, in which row e contributes exactly when its index, read as a signed integer, is the number of the entry's
  row; an update whose index is negative or too large contributes to no entry at all. This turns the filtered sum
  of the accumulating scatter into a sum over `Fin R` with an `if`, the form in which sums over edges can be split,
  exchanged with other sums and compared.
-/
import proofs.«113988_j31370441130067_2_alg».proof.Proof.LibIndexRows
import Idealize.ShloMosaic.PureOps.Ideal

noncomputable section

namespace Cert.LibScatterSum

open Idealize.ShloMosaic Idealize.ShloMosaic.ValueIdx Cert.LibIndexRows
open scoped BigOperators

/-- A sum over the rank-1 index set is the sum over its one coordinate. -/
theorem sum_idx1 {M : Type*} [AddCommMonoid M] {n : Nat} (f : (⟨1, ![n]⟩ : Shape).Idx → M) :
    ∑ i, f i = ∑ a : Fin n, f (ix1 a) :=
  Fintype.sum_equiv ⟨fun j => j 0, ix1, fun j => (eq_ix1 j).symm, fun _ => rfl⟩ _ _ fun j => congrArg f (eq_ix1 j)

/-! ## Whole rows added into a matrix -/

/-- Entry (i, c) of the matrix after the update rows were added: the entry itself plus, over all update rows e,
    entry (e, c) of the updates whenever the signed value of idx[e, 0] is i. -/
theorem rowScatterAdd_apply {N D R w : Nat} (wf : ScatterDims.WF ⟨2, ![N, D]⟩ ⟨2, ![R, 1]⟩ ⟨2, ![R, D]⟩ [1] [0] [0] 1)
    (x : (⟨2, ![N, D]⟩ : Shape).Idx → EReal) (idx : IVec ⟨2, ![R, 1]⟩ w) (upd : (⟨2, ![R, D]⟩ : Shape).Idx → EReal)
    (i : Fin N) (c : Fin D) :
    Ideal.hostScatterAdd (rowScatterDims N D R wf) x idx upd (ix2 i c)
      = x (ix2 i c) + ∑ e : Fin R, if (idx (ix2 e 0)).toInt = (i.val : ℤ) then upd (ix2 e c) else 0 := by
  unfold Ideal.hostScatterAdd
  congr 1
  rw [Finset.sum_filter, sum_idx2]
  refine Finset.sum_congr rfl fun e _ => ?_
  by_cases h : (idx (ix2 e 0)).toInt = (i.val : ℤ)
  · rw [if_pos h]
    refine (Finset.sum_eq_single c (fun b _ hb => ?_) (fun hc => absurd (Finset.mem_univ c) hc)).trans ?_
    · refine if_neg fun hres => hb ?_
      have h2 := (rowScatter_resultIdx wf idx e b (ix2 i c) hres).2
      exact Fin.ext h2.symm
    · exact if_pos (rowScatter_resultIdx_of_row wf idx e c i h)
  · rw [if_neg h]
    refine Finset.sum_eq_zero fun b _ => ?_
    exact if_neg fun hres => h (rowScatter_resultIdx wf idx e b (ix2 i c) hres).1

/-! ## Single entries added into a vector -/

/-- The window of update entry e starts at the signed value of idx[e, 0] … -/
theorem entry_start {N R w : Nat} (wf : ScatterDims.WF ⟨1, ![N]⟩ ⟨2, ![R, 1]⟩ ⟨1, ![R]⟩ [] [0] [0] 1)
    (idx : IVec ⟨2, ![R, 1]⟩ w) (e : Fin R) :
    (entryScatterDims N R wf).start (ix1 e) idx 0 = (idx (ix2 e 0)).toInt := by
  unfold ScatterDims.start
  rw [dif_pos (show (0 : Fin 1) ∈ (entryScatterDims N R wf).scatterDimsToOperandDims from List.mem_singleton.mpr rfl)]
  have hsi : (entryScatterDims N R wf).siIdx (ix1 e) ⟨List.idxOf (0 : Fin 1) (entryScatterDims N R wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and has no extent: the vector's one axis is not a window axis. -/
theorem entry_window {N R : Nat} (wf : ScatterDims.WF ⟨1, ![N]⟩ ⟨2, ![R, 1]⟩ ⟨1, ![R]⟩ [] [0] [0] 1) (e : Fin R) :
    (entryScatterDims N R wf).window (ix1 e) 0 = 0 := by
  unfold ScatterDims.window
  rw [dif_neg]
  intro hk
  have h' : (0 : Fin 1) ∉ [(0 : Fin 1)] := (List.mem_filter.mp hk).2 |> fun h => by simpa using h
  exact h' (List.mem_singleton.mpr rfl)

/-- When the signed value of idx[e, 0] is the number of an entry r of the vector, update entry e does land, on r. -/
theorem entryScatter_resultIdx_of {N R w : Nat} (wf : ScatterDims.WF ⟨1, ![N]⟩ ⟨2, ![R, 1]⟩ ⟨1, ![R]⟩ [] [0] [0] 1)
    (idx : IVec ⟨2, ![R, 1]⟩ w) (e : Fin R) (r : Fin N) (hr : (idx (ix2 e 0)).toInt = (r.val : ℤ)) :
    (entryScatterDims N R wf).resultIdx? (ix1 e) idx = some (ix1 r) := by
  have hin : ∀ a, 0 ≤ (entryScatterDims N R wf).start (ix1 e) idx a + ((entryScatterDims N R wf).window (ix1 e) a : ℕ)
      ∧ (entryScatterDims N R wf).start (ix1 e) idx a + ((entryScatterDims N R wf).window (ix1 e) a : ℕ)
        < (((⟨1, ![N]⟩ : Shape).size a : ℕ) : ℤ) := by
    intro a
    match a with
    | ⟨0, _⟩ =>
      show 0 ≤ (entryScatterDims N R wf).start (ix1 e) idx 0 + ((entryScatterDims N R wf).window (ix1 e) 0 : ℕ)
        ∧ (entryScatterDims N R wf).start (ix1 e) idx 0 + ((entryScatterDims N R wf).window (ix1 e) 0 : ℕ) < ((N : ℕ) : ℤ)
      rw [entry_start, entry_window, hr]
      have := r.isLt
      omega
  unfold ScatterDims.resultIdx?
  rw [dif_pos hin]
  congr 1
  funext a
  refine Fin.ext ?_
  match a with
  | ⟨0, _⟩ =>
    show ((entryScatterDims N R wf).start (ix1 e) idx 0 + ((entryScatterDims N R wf).window (ix1 e) 0 : ℕ) : ℤ).toNat = r.val
    rw [entry_start, entry_window, hr]
    omega

/-- Entry i of the vector after the update entries were added: the entry itself plus, over all update entries e,
    update e whenever the signed value of idx[e, 0] is i. -/
theorem entryScatterAdd_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal) (i : Fin N) :
    Ideal.hostScatterAdd (entryScatterDims N R wf) x idx upd (ix1 i)
      = x (ix1 i) + ∑ e : Fin R, if (idx (ix2 e 0)).toInt = (i.val : ℤ) then upd (ix1 e) else 0 := by
  unfold Ideal.hostScatterAdd
  congr 1
  rw [Finset.sum_filter, sum_idx1]
  refine Finset.sum_congr rfl fun e _ => ?_
  by_cases h : (idx (ix2 e 0)).toInt = (i.val : ℤ)
  · rw [if_pos h, if_pos (entryScatter_resultIdx_of wf idx e i h)]
  · rw [if_neg h]
    exact if_neg fun hres => h (entryScatter_resultIdx wf idx e (ix1 i) hres)

end Cert.LibScatterSum

end
-- ==== Proof.LibBroadcastIn.lean ====
/-
  A `broadcast_in_dim` of a small shape, read at an index.

  The five forms a gather/scatter program and a row-wise normalisation meet: a scalar spread over any shape reads
  the scalar everywhere; a vector made into a one-column matrix reads the vector at the row; a one-column matrix
  spread over the columns reads its column at the row; a vector made into a one-row matrix reads the vector at the
  column; and a one-row matrix spread over the rows reads its row at the column. All are general in the extents.
-/
import Idealize.ShloMosaic.Lib.Pipeline.Value
import Idealize.ShloMosaic.Lib.ValueIdx

noncomputable section

namespace Cert.LibBroadcastIn

open Idealize.ShloMosaic Idealize.ShloMosaic.ValueIdx

variable {α : Type}

/-- A scalar spread over any shape reads, everywhere, the scalar. -/
theorem scalar_apply {t : Shape} (h : (⟨0, ![]⟩ : Shape).BroadcastsInDim t (![] : Fin 0 → Fin t.rank))
    (y : (⟨0, ![]⟩ : Shape).Idx → α) (j : t.Idx) : broadcastInDim t ![] h y j = y ix0 :=
  broadcastInDim_apply _ h y j ix0 (fun a => a.elim0)

/-- `[a] → [a, 1]` along axis 0: entry (e, u) is the vector's entry e. -/
theorem col_apply {a : ℕ} (h : (⟨1, ![a]⟩ : Shape).BroadcastsInDim ⟨2, ![a, 1]⟩ (![0] : Fin 1 → Fin 2))
    (y : (⟨1, ![a]⟩ : Shape).Idx → α) (e : Fin a) (u : Fin 1) :
    broadcastInDim ⟨2, ![a, 1]⟩ ![0] h y (ix2 e u) = y (ix1 e) := by
  refine broadcastInDim_apply _ h y (ix2 e u) (ix1 e) fun ax => ?_
  match ax with
  | ⟨0, _⟩ =>
    show e.val = if a = 1 then 0 else e.val
    split
    · have := e.isLt; omega
    · rfl

/-- `[a, 1] → [a, b]`: entry (e, c) is the column's entry (e, 0). -/
theorem rows_apply {a b : ℕ} (h : (⟨2, ![a, 1]⟩ : Shape).BroadcastsInDim ⟨2, ![a, b]⟩ (![0, 1] : Fin 2 → Fin 2))
    (y : (⟨2, ![a, 1]⟩ : Shape).Idx → α) (e : Fin a) (c : Fin b) :
    broadcastInDim ⟨2, ![a, b]⟩ ![0, 1] h y (ix2 e c) = y (ix2 e (0 : Fin 1)) := by
  refine broadcastInDim_apply _ h y (ix2 e c) (ix2 e (0 : Fin 1)) fun ax => ?_
  match ax with
  | ⟨0, _⟩ =>
    show e.val = if a = 1 then 0 else e.val
    split
    · have := e.isLt; omega
    · rfl
  | ⟨1, _⟩ =>
    show (0 : ℕ) = if (1 : ℕ) = 1 then 0 else c.val
    rw [if_pos rfl]

/-- `[b] → [1, b]` along axis 1: entry (u, c) is the vector's entry c. -/
theorem row1_apply {b : ℕ} (h : (⟨1, ![b]⟩ : Shape).BroadcastsInDim ⟨2, ![1, b]⟩ (![1] : Fin 1 → Fin 2))
    (y : (⟨1, ![b]⟩ : Shape).Idx → α) (u : Fin 1) (c : Fin b) :
    broadcastInDim ⟨2, ![1, b]⟩ ![1] h y (ix2 u c) = y (ix1 c) := by
  refine broadcastInDim_apply _ h y (ix2 u c) (ix1 c) fun ax => ?_
  match ax with
  | ⟨0, _⟩ =>
    show c.val = if b = 1 then 0 else c.val
    split
    · have := c.isLt; omega
    · rfl

/-- `[1, b] → [a, b]`: entry (r, c) is the row's entry (0, c). -/
theorem tile_apply {a b : ℕ} (h : (⟨2, ![1, b]⟩ : Shape).BroadcastsInDim ⟨2, ![a, b]⟩ (![0, 1] : Fin 2 → Fin 2))
    (y : (⟨2, ![1, b]⟩ : Shape).Idx → α) (r : Fin a) (c : Fin b) :
    broadcastInDim ⟨2, ![a, b]⟩ ![0, 1] h y (ix2 r c) = y (ix2 (0 : Fin 1) c) := by
  refine broadcastInDim_apply _ h y (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end Cert.LibBroadcastIn

end
-- ==== Proof.GcnOps.lean ====
/-
  The host operations of a graph convolution, read at an index.

  Both programs take rows of a table at the messages' source nodes and add rows into a table at the messages' target
  nodes, with the node numbers given as a column of signed 32-bit words: sources are first wrapped (a negative word
  counts from the end) and every read clamps its word into the table; an addition lands on the row whose number is the
  target word read signed, and nowhere if that is no row. Read at one entry these operations are: the table at the
  clamped, wrapped source; and the table's entry plus a sum over all messages of the updates whose target word names
  the entry's row. The degree is such a sum of ones, and the last 50000 messages are the self-loops, message
  1600000 + i going from node i to node i.
-/
import Idealize.ShloMosaic.PureOps.Ideal
import Idealize.ShloMosaic.PureOps.Ideal.Laws
import Idealize.ShloMosaic.Lib.IdealHost
import Idealize.ShloMosaic.Lib.ValueIdx
import Idealize.ShloMosaic.Lib.Pipeline.Value
import proofs.«113988_j31370441130067_2_alg».proof.Proof.LibIndexRows
import proofs.«113988_j31370441130067_2_alg».proof.Proof.LibScatterSum
import proofs.«113988_j31370441130067_2_alg».proof.Proof.LibBroadcastIn
import proofs.«113988_j31370441130067_2_alg».proof.Proof.GcnSpec

noncomputable section

namespace Cert.GcnOps

open Idealize.ShloMosaic Idealize.ShloMosaic.ValueIdx
open Cert.LibIndexRows Cert.LibScatterSum Cert.LibBroadcastIn
open scoped BigOperators

abbrev S0 : Shape := ⟨0, ![]⟩
abbrev SR : Shape := ⟨1, ![1650000]⟩
abbrev SR1 : Shape := ⟨2, ![1650000, 1]⟩
abbrev SN : Shape := ⟨1, ![50000]⟩
abbrev SE : Shape := ⟨1, ![1600000]⟩

/-! ## Index words -/

/-- The wrap of negative words, on the whole array of words, read at one message. -/
theorem wrap_apply (hb : S0.BroadcastsInDim SR (![] : Fin 0 → Fin SR.rank)) (I : IVec SR 32) (e : Fin 1650000) :
    select (cmpi .slt I (broadcastInDim SR ![] hb (constantI S0 32 0#32)))
      (addi I (broadcastInDim SR ![] hb (constantI S0 32 50000#32))) I (ix1 e) = Cert.Gcn.wr (I (ix1 e)) := by
  show Scalar.select (IntOp.cmpi .slt (I (ix1 e)) (broadcastInDim SR ![] hb (constantI S0 32 0#32) (ix1 e)))
    (IntOp.addi (I (ix1 e)) (broadcastInDim SR ![] hb (constantI S0 32 50000#32) (ix1 e))) (I (ix1 e)) = _
  rw [scalar_apply hb, scalar_apply hb]
  rfl

/-- Rows of a 50000-row table taken at a column of words: entry (e, j) is the table at the clamped word of message e. -/
theorem gather_rows {D : ℕ}
    (wf : GatherDims.WF ⟨2, ![50000, D]⟩ SR1 ⟨2, ![1650000, D]⟩ [1] [0] [] [0] [] 1 ![1, D])
    (hc : SR.BroadcastsInDim SR1 (![0] : Fin 1 → Fin 2))
    (x : (⟨2, ![50000, D]⟩ : Shape).Idx → EReal) (J : IVec SR 32) (e : Fin 1650000) (j : Fin D) :
    Host.gather (rowGatherDims 50000 D 1650000 wf) x (broadcastInDim SR1 ![0] hc J) (ix2 e j)
      = x (ix2 (Cert.Gcn.cl (J (ix1 e))) j) := by
  refine (gather_rows_apply (by norm_num) wf x _ e j).trans (congrArg (fun v => x (ix2 v j)) (Fin.ext ?_))
  show min (broadcastInDim SR1 ![0] hc J (ix2 e 0)).toInt.toNat (50000 - 1) = min (J (ix1 e)).toInt.toNat (50000 - 1)
  rw [col_apply hc J e 0]

/-- Entries of a length-50000 vector taken at a column of words. -/
theorem gather_entries
    (wf : GatherDims.WF SN SR1 SR [] [0] [] [0] [] 1 ![1])
    (hc : SR.BroadcastsInDim SR1 (![0] : Fin 1 → Fin 2))
    (x : SN.Idx → EReal) (J : IVec SR 32) (e : Fin 1650000) :
    Host.gather (entryGatherDims 50000 1650000 wf) x (broadcastInDim SR1 ![0] hc J) (ix1 e)
      = x (ix1 (Cert.Gcn.cl (J (ix1 e)))) := by
  refine (gather_entries_apply (by norm_num) wf x _ e).trans (congrArg (fun v => x (ix1 v)) (Fin.ext ?_))
  show min (broadcastInDim SR1 ![0] hc J (ix2 e 0)).toInt.toNat (50000 - 1) = min (J (ix1 e)).toInt.toNat (50000 - 1)
  rw [col_apply hc J e 0]

/-- Rows added into a 50000-row table at a column of words, read at entry (i, c). -/
theorem scatter_rows {D : ℕ}
    (wf : ScatterDims.WF ⟨2, ![50000, D]⟩ SR1 ⟨2, ![1650000, D]⟩ [1] [0] [0] 1)
    (hc : SR.BroadcastsInDim SR1 (![0] : Fin 1 → Fin 2))
    (x : FVec Ideal ⟨2, ![50000, D]⟩ .f32) (J : IVec SR 32) (upd : FVec Ideal ⟨2, ![1650000, D]⟩ .f32)
    (i : Fin 50000) (c : Fin D) :
    Host.scatterAdd (rowScatterDims 50000 D 1650000 wf) x (broadcastInDim SR1 ![0] hc J) upd (ix2 i c)
      = x (ix2 i c) + ∑ e : Fin 1650000, if (J (ix1 e)).toInt = (i.val : ℤ) then upd (ix2 e c) else 0 := by
  show Ideal.hostScatterAdd (rowScatterDims 50000 D 1650000 wf) x (broadcastInDim SR1 ![0] hc J) upd (ix2 i c) = _
  rw [rowScatterAdd_apply]
  refine congrArg (x (ix2 i c) + ·) (Finset.sum_congr rfl fun e _ => ?_)
  rw [col_apply hc J e 0]

/-- Entries added into a length-50000 vector at a column of words, read at entry i. -/
theorem scatter_entries
    (wf : ScatterDims.WF SN SR1 SR [] [0] [0] 1)
    (hc : SR.BroadcastsInDim SR1 (![0] : Fin 1 → Fin 2))
    (x : FVec Ideal SN .f32) (J : IVec SR 32) (upd : FVec Ideal SR .f32) (i : Fin 50000) :
    Host.scatterAdd (entryScatterDims 50000 1650000 wf) x (broadcastInDim SR1 ![0] hc J) upd (ix1 i)
      = x (ix1 i) + ∑ e : Fin 1650000, if (J (ix1 e)).toInt = (i.val : ℤ) then upd (ix1 e) else 0 := by
  show Ideal.hostScatterAdd (entryScatterDims 50000 1650000 wf) x (broadcastInDim SR1 ![0] hc J) upd (ix1 i) = _
  rw [entryScatterAdd_apply]
  refine congrArg (x (ix1 i) + ·) (Finset.sum_congr rfl fun e _ => ?_)
  rw [col_apply hc J e 0]

/-! ## The degree and the factor -/

/-- The scattered ones, read at node i, are its degree. -/
theorem deg_apply
    (wf : ScatterDims.WF SN SR1 SR [] [0] [0] 1)
    (hc : SR.BroadcastsInDim SR1 (![0] : Fin 1 → Fin 2))
    (hbN : S0.BroadcastsInDim SN (![] : Fin 0 → Fin SN.rank))
    (hbR : S0.BroadcastsInDim SR (![] : Fin 0 → Fin SR.rank))
    (z o : FVec Ideal S0 .f32) (hz : z ix0 = 0) (ho : o ix0 = 1)
    (J : IVec SR 32) (i : Fin 50000) :
    Host.scatterAdd (entryScatterDims 50000 1650000 wf) (broadcastInDim SN ![] hbN z)
        (broadcastInDim SR1 ![0] hc J) (broadcastInDim SR ![] hbR o) (ix1 i)
      = Cert.Gcn.deg (fun e => J (ix1 e)) i := by
  refine (scatter_entries wf hc _ J _ i).trans ?_
  unfold Cert.Gcn.deg
  refine congrArg₂ (· + ·) ?_ (Finset.sum_congr rfl fun e _ => ?_)
  · rw [scalar_apply hbN, hz]
  · rw [scalar_apply hbR, ho]

/-- The host's inverse square root of a vector, read at an entry. -/
theorem rsqrt_apply {s : Shape} (v : FVec Ideal s .f32) (j : s.Idx) :
    Host.rsqrt (F := Ideal) v j = Ideal.rsqrt (v j) := rfl

/-- The constant words of zero and of one. -/
theorem zero_word : constant (F := Ideal) S0 .f32 0x00000000#32 ix0 = 0 := Ideal.ofBits_zero_f32
theorem one_word : constant (F := Ideal) S0 .f32 0x3F800000#32 ix0 = 1 := Ideal.ofBits_one_f32

/-! ## The self-loops -/

/-- The words of the messages are the given edge words followed by the node numbers 0 … 49999: message
    1600000 + i has the word of i, which read signed is i. -/
theorem loop_word (hcat : Shape.Concatenates [SE, SN] SR 0) (a : IVec SE 32) (i : Fin 50000) :
    (concatenate SR 0 [⟨SE, a⟩, ⟨SN, iotaInDim SN 32 0⟩] hcat (ix1 (⟨1600000 + i.val, by omega⟩ : Fin 1650000))).toInt
      = (i.val : ℤ) := by
  rw [concatenate_pair_apply_right (t := SR) (s₁ := SE) (s₂ := SN) (0 : Fin 1) a (iotaInDim SN 32 0) hcat _ rfl rfl (ix1 i)
    (fun b hb => absurd (Subsingleton.elim _ _) hb) (by show i.val + 1600000 = 1600000 + i.val; omega)]
  show (BitVec.ofNat 32 i.val).toInt = _
  have hi := i.isLt
  rw [BitVec.toInt_eq_toNat_cond, BitVec.toNat_ofNat]
  have : i.val % 2 ^ 32 = i.val := Nat.mod_eq_of_lt (by omega)
  rw [this, if_pos (by omega)]

end Cert.GcnOps

end
-- ==== Proof.KHost1.lean ====
/-
  The kernel program up to its second launch, read as the mathematics.

  Before the first launch the host forms the messages' source and target words (the edge words followed by the node
  numbers), the degrees by adding a one at every message's target, the factors as their inverse square roots, and the
  factors as a column. The first launch leaves the scaled projection of the features. The host then takes its rows at
  the messages' sources and adds them at the messages' targets, and lays the first bias out as a row.
-/
import proofs.«113988_j31370441130067_2_alg».proof.Proof.Gen.KernelIdeal.Frame
import proofs.«113988_j31370441130067_2_alg».proof.Proof.Region0
import proofs.«113988_j31370441130067_2_alg».proof.Proof.GcnSpec
import proofs.«113988_j31370441130067_2_alg».proof.Proof.GcnOps
import proofs.«113988_j31370441130067_2_alg».proof.Proof.LibColumn
import proofs.«113988_j31370441130067_2_alg».proof.Proof.LibBroadcastIn
import Idealize.ShloMosaic.Lib.StableHlo.Run
import Idealize.ShloMosaic.Lib.ValueLayout
import Idealize.ShloMosaic.PureOps.Ideal

set_option maxRecDepth 16384

noncomputable section

open Idealize.ShloMosaic Idealize.ShloMosaic.TcCoe Idealize.SL.Sem Idealize.ShloMosaic.ValueIdx
open Idealize.ShloMosaic.StableHlo
open scoped BigOperators

namespace Cert.KernelIdeal.HostV

open Cert.KernelIdeal Cert.KernelIdeal.Gen

variable (m : (ℓ : Loc nD τ sig) → Buf (Elt Ideal) ℓ) (ρ : Dev nD → PrngReg)

/-! ## The arguments, as plain arrays and functions -/

abbrev A0 (c : Dev nD) : S50000x512.Idx → EReal := m ((c : Thread nD τ).loc main_arg0)
abbrev A1 (c : Dev nD) : IVec S2x1600000 32 := m ((c : Thread nD τ).loc main_arg1)
abbrev A2 (c : Dev nD) : S512x64.Idx → EReal := m ((c : Thread nD τ).loc main_arg2)
abbrev A3 (c : Dev nD) : S64.Idx → EReal := m ((c : Thread nD τ).loc main_arg3)
abbrev A4 (c : Dev nD) : S64x32.Idx → EReal := m ((c : Thread nD τ).loc main_arg4)
abbrev A5 (c : Dev nD) : S32.Idx → EReal := m ((c : Thread nD τ).loc main_arg5)
abbrev A6 (c : Dev nD) : S32x64.Idx → EReal := m ((c : Thread nD τ).loc main_arg6)
abbrev A7 (c : Dev nD) : S64.Idx → EReal := m ((c : Thread nD τ).loc main_arg7)
abbrev A8 (c : Dev nD) : S64x512.Idx → EReal := m ((c : Thread nD τ).loc main_arg8)
abbrev A9 (c : Dev nD) : S512.Idx → EReal := m ((c : Thread nD τ).loc main_arg9)

/-- The messages' source words: row 0 of the edge words, then the node numbers. -/
def srcA (a1 : IVec S2x1600000 32) : IVec S1650000 32 :=
  concatenate S1650000 0 [⟨S1600000, shapeCast S1600000 (extractStridedSlice S1x1600000 ![0, 0] a1 slices_S2x1600000_S1x1600000_0_0) shapeCasts_S1x1600000_S1600000⟩,
    ⟨S50000, iotaInDim S50000 32 0⟩] concatenates_S1600000_S50000_S1650000_d0

/-- The messages' target words: row 1 of the edge words, then the node numbers. -/
def dstA (a1 : IVec S2x1600000 32) : IVec S1650000 32 :=
  concatenate S1650000 0 [⟨S1600000, shapeCast S1600000 (extractStridedSlice S1x1600000 ![1, 0] a1 slices_S2x1600000_S1x1600000_1_0) shapeCasts_S1x1600000_S1600000⟩,
    ⟨S50000, iotaInDim S50000 32 0⟩] concatenates_S1600000_S50000_S1650000_d0

abbrev srcW (c : Dev nD) : Fin 1650000 → BitVec 32 := fun e => srcA (A1 m c) (ix1 e)
abbrev dstW (c : Dev nD) : Fin 1650000 → BitVec 32 := fun e => dstA (A1 m c) (ix1 e)
abbrev X0 (c : Dev nD) : Fin 50000 → Fin 512 → EReal := fun i k => A0 m c (ix2 i k)
abbrev M1 (c : Dev nD) : Fin 512 → Fin 64 → EReal := fun k n => A2 m c (ix2 k n)
abbrev B1 (c : Dev nD) : Fin 64 → EReal := fun n => A3 m c (ix1 n)
abbrev M2 (c : Dev nD) : Fin 64 → Fin 32 → EReal := fun k n => A4 m c (ix2 k n)
abbrev B2 (c : Dev nD) : Fin 32 → EReal := fun n => A5 m c (ix1 n)
abbrev M3 (c : Dev nD) : Fin 32 → Fin 64 → EReal := fun k n => A6 m c (ix2 k n)
abbrev B3 (c : Dev nD) : Fin 64 → EReal := fun n => A7 m c (ix1 n)
abbrev M4 (c : Dev nD) : Fin 64 → Fin 512 → EReal := fun k n => A8 m c (ix2 k n)
abbrev B4 (c : Dev nD) : Fin 512 → EReal := fun n => A9 m c (ix1 n)

/-- Every node has its self-loop among the messages. -/
theorem dst_loop (c : Dev nD) (i : Fin 50000) : ∃ e, (dstW m c e).toInt = (i.val : ℤ) :=
  ⟨⟨1600000 + i.val, by omega⟩, Cert.GcnOps.loop_word concatenates_S1600000_S50000_S1650000_d0 _ i⟩

/-! ## Before the first launch -/

theorem W1_v3 (c : Dev nD) : W1 m ρ c (Proc.devRef .tc main_v3) = srcA (A1 m c) := by
  show StableHlo.after hostOps0 (W0 m ρ c) (Proc.devRef .tc main_v3) = _
  after_results
  rfl

theorem W1_v6 (c : Dev nD) : W1 m ρ c (Proc.devRef .tc main_v6) = dstA (A1 m c) := by
  show StableHlo.after hostOps0 (W0 m ρ c) (Proc.devRef .tc main_v6) = _
  after_results
  rfl

theorem W1_arg0 (c : Dev nD) : W1 m ρ c (Proc.devRef .tc main_arg0) = A0 m c := by
  show StableHlo.after hostOps0 (W0 m ρ c) (Proc.devRef .tc main_arg0) = _
  after_results
theorem W1_arg2 (c : Dev nD) : W1 m ρ c (Proc.devRef .tc main_arg2) = A2 m c := by
  show StableHlo.after hostOps0 (W0 m ρ c) (Proc.devRef .tc main_arg2) = _
  after_results
theorem W1_arg3 (c : Dev nD) : W1 m ρ c (Proc.devRef .tc main_arg3) = A3 m c := by
  show StableHlo.after hostOps0 (W0 m ρ c) (Proc.devRef .tc main_arg3) = _
  after_results
theorem W1_arg4 (c : Dev nD) : W1 m ρ c (Proc.devRef .tc main_arg4) = A4 m c := by
  show StableHlo.after hostOps0 (W0 m ρ c) (Proc.devRef .tc main_arg4) = _
  after_results

/-- The factor column at row i is node i's factor. -/
theorem W1_v12_apply (c : Dev nD) (i : Fin 50000) :
    (W1 m ρ c (Proc.devRef .tc main_v12) : S50000x1.Idx → EReal) (ix2 i (0 : Fin 1)) = Cert.Gcn.dis (dstW m c) i := by
  show StableHlo.after hostOps0 (W0 m ρ c) (Proc.devRef .tc main_v12) (ix2 i (0 : Fin 1)) = _
  after_results
  refine (Cert.LibColumn.shapeCast_a_a1_apply _ shapeCasts_S50000_S50000x1 i 0).trans ?_
  refine (Cert.GcnOps.rsqrt_apply _ _).trans (congrArg Ideal.rsqrt ?_)
  exact Cert.GcnOps.deg_apply scatter_S50000_S1650000x1_S1650000_n_0_0_1_wf bcast_S1650000_S1650000x1_0 bcast_S_S50000 bcast_S_S1650000
    _ _ Cert.GcnOps.zero_word Cert.GcnOps.one_word (dstA (A1 m c)) i

/-! ## After the first launch -/

theorem W2_v13 (c : Dev nD) : W2 m ρ c (Proc.devRef .tc main_v13) = Cert.KernelIdeal.Reg0.out (V1 m ρ) c :=
  (W2_arr m ρ c 3).trans (Cert.KernelIdeal.Reg0.final (V1 m ρ) c)

/-- The first launch leaves the scaled projection. -/
theorem W2_v13_apply (c : Dev nD) (p : Fin 50000) (q : Fin 64) :
    (W2 m ρ c (Proc.devRef .tc main_v13) : S50000x64.Idx → EReal) (ix2 p q)
      = Cert.Gcn.pre (dstW m c) (X0 m c) (M1 m c) p q := by
  refine (congrFun (W2_v13 m ρ c) (ix2 p q)).trans ?_
  rw [Cert.KernelIdeal.Reg0.out_apply]
  unfold Cert.Gcn.pre Cert.Gcn.mm
  refine congrArg₂ (· * ·) (Finset.sum_congr rfl fun k _ => congrArg₂ (· * ·) ?_ ?_) ?_
  · exact congrFun (W1_arg0 m ρ c) _
  · exact congrFun (W1_arg2 m ρ c) _
  · exact W1_v12_apply m ρ c p

theorem W2_v3 (c : Dev nD) : W2 m ρ c (Proc.devRef .tc main_v3) = srcA (A1 m c) :=
  (W2_of_ne m ρ c main_v3 (by decide)).trans (W1_v3 m ρ c)
theorem W2_v6 (c : Dev nD) : W2 m ρ c (Proc.devRef .tc main_v6) = dstA (A1 m c) :=
  (W2_of_ne m ρ c main_v6 (by decide)).trans (W1_v6 m ρ c)
theorem W2_arg3 (c : Dev nD) : W2 m ρ c (Proc.devRef .tc main_arg3) = A3 m c :=
  (W2_of_ne m ρ c main_arg3 (by decide)).trans (W1_arg3 m ρ c)
theorem W2_arg4 (c : Dev nD) : W2 m ρ c (Proc.devRef .tc main_arg4) = A4 m c :=
  (W2_of_ne m ρ c main_arg4 (by decide)).trans (W1_arg4 m ρ c)
theorem W2_v12 (c : Dev nD) : W2 m ρ c (Proc.devRef .tc main_v12) = W1 m ρ c (Proc.devRef .tc main_v12) :=
  (W2_arr m ρ c 2).trans (((dat0 (V1 m ρ) c).arrAt_in 2 rfl _).trans (A_eq0 (V1 m ρ) c 2))

/-! ## Before the second launch -/

/-- What arrives at node i after the first sending. -/
theorem W3_v23_apply (c : Dev nD) (i : Fin 50000) (q : Fin 64) :
    (W3 m ρ c (Proc.devRef .tc main_v23) : S50000x64.Idx → EReal) (ix2 i q)
      = Cert.Gcn.aggKer (srcW m c) (dstW m c) (Cert.Gcn.pre (dstW m c) (X0 m c) (M1 m c)) i q := by
  show StableHlo.after hostOps1 (W2 m ρ c) (Proc.devRef .tc main_v23) (ix2 i q) = _
  after_results
  rw [W2_v3 m ρ c, W2_v6 m ρ c]
  refine (Cert.GcnOps.scatter_rows (D := 64) scatter_S50000x64_S1650000x1_S1650000x64_1_0_0_1_wf bcast_S1650000_S1650000x1_0 _ _ _ i q).trans ?_
  unfold Cert.Gcn.aggKer
  refine congrArg₂ (· + ·) ?_ (Finset.sum_congr rfl fun e _ => if_congr Iff.rfl ?_ rfl)
  · rw [Cert.LibBroadcastIn.scalar_apply bcast_S_S50000x64]
    exact Cert.GcnOps.zero_word
  · refine (Cert.GcnOps.gather_rows (D := 64) gather_S50000x64_S1650000x1_S1650000x64_1_0_n_n_0_1_164_wf bcast_S1650000_S1650000x1_0 _ _ e q).trans ?_
    rw [Cert.GcnOps.wrap_apply bcast_S_S1650000]
    exact W2_v13_apply m ρ c _ q

/-- The first bias laid out as a row. -/
theorem W3_v24_apply (c : Dev nD) (k : Fin 64) :
    (W3 m ρ c (Proc.devRef .tc main_v24) : S1x64.Idx → EReal) (ix2 (0 : Fin 1) k) = B1 m c k := by
  show StableHlo.after hostOps1 (W2 m ρ c) (Proc.devRef .tc main_v24) (ix2 (0 : Fin 1) k) = _
  after_results
  rw [W2_arg3 m ρ c]
  exact shapeCast_a_1a_apply _ shapeCasts_S64_S1x64 0 k

theorem W3_v12 (c : Dev nD) : W3 m ρ c (Proc.devRef .tc main_v12) = W2 m ρ c (Proc.devRef .tc main_v12) := by
  show StableHlo.after hostOps1 (W2 m ρ c) (Proc.devRef .tc main_v12) = _
  after_results

/-- The factor column is still the factors at the second launch. -/
theorem W3_v12_apply (c : Dev nD) (i : Fin 50000) :
    (W3 m ρ c (Proc.devRef .tc main_v12) : S50000x1.Idx → EReal) (ix2 i (0 : Fin 1)) = Cert.Gcn.dis (dstW m c) i :=
  (congrFun ((W3_v12 m ρ c).trans (W2_v12 m ρ c)) _).trans (W1_v12_apply m ρ c i)

theorem W3_arg4 (c : Dev nD) : W3 m ρ c (Proc.devRef .tc main_arg4) = A4 m c := by
  show StableHlo.after hostOps1 (W2 m ρ c) (Proc.devRef .tc main_arg4) = _
  after_results
  exact W2_arg4 m ρ c

theorem W3_v3 (c : Dev nD) : W3 m ρ c (Proc.devRef .tc main_v3) = srcA (A1 m c) := by
  show StableHlo.after hostOps1 (W2 m ρ c) (Proc.devRef .tc main_v3) = _
  after_results
  exact W2_v3 m ρ c
theorem W3_v6 (c : Dev nD) : W3 m ρ c (Proc.devRef .tc main_v6) = dstA (A1 m c) := by
  show StableHlo.after hostOps1 (W2 m ρ c) (Proc.devRef .tc main_v6) = _
  after_results
  exact W2_v6 m ρ c

end Cert.KernelIdeal.HostV

end
-- ==== Proof.LibBiasRow.lean ====
/-
  A bias row added to every row of a matrix, read at an entry.

  A kernel body adds a bias by casting the length-N vector to a 1×N matrix and broadcasting it over the M rows; the
  host adds it by two broadcasts in dimension, first to 1×N and then to M×N. Either way entry (p, c) of the result
  is entry c of the vector. Both lemmas are general in the extents and the element type.
-/
import Idealize.ShloMosaic.Lib.ValueLayout
import proofs.«113988_j31370441130067_2_alg».proof.Proof.LibBroadcastIn

noncomputable section

namespace Cert.LibBiasRow

open Idealize.ShloMosaic Idealize.ShloMosaic.ValueIdx

variable {α : Type}

/-- The kernel's spelling: a vector cast to one row and broadcast over the rows reads the vector at the column. -/
theorem cast_broadcast_apply {M N : ℕ} (b : (⟨1, ![N]⟩ : Shape).Idx → α)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ b hc) hb (ix2 p c) = b (ix1 c) :=
  (broadcastTo_1b_ab_apply _ hb p c).trans (shapeCast_a_1a_apply b hc 0 c)

/-- The host's spelling: a vector made one row and that row tiled over the rows reads the vector at the column. -/
theorem row_tile_apply {M N : ℕ} (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (p : Fin M) (c : Fin N) :
    broadcastInDim ⟨2, ![M, N]⟩ ![0, 1] h2 (broadcastInDim ⟨2, ![1, N]⟩ ![1] h1 b) (ix2 p c) = b (ix1 c) :=
  (Cert.LibBroadcastIn.tile_apply h2 _ p c).trans (Cert.LibBroadcastIn.row1_apply h1 b 0 c)

end Cert.LibBiasRow

end
-- ==== Proof.Region1.lean ====
/-
  The second launch: the scaled, shifted and clamped rows against the second weight matrix, scaled again, as one
  function of the arrays the launch finds.

  The launch tiles the 50000 rows into 10 blocks of 5000. At a block the body scales row p of the block of the
  aggregated array (5000×64) by entry (p, 0) of the block of the factor column (5000×1), adds the one-row bias (1×64)
  to every row, takes the maximum with zero, multiplies the result by the whole weight matrix (64×32) and scales row p
  of the product by the factor column's entry of row p again. Since row p of block t is row 5000·t + p of the arrays,
  what the launch leaves in its output array is, at (i, c), the sum over k of
  max (aggregated (i, k) · factor (i, 0) + bias (0, k)) 0 · weights (k, c), times factor (i, 0).
-/
import proofs.«113988_j31370441130067_2_alg».proof.Proof.Gen.KernelIdeal.Frame
import proofs.«113988_j31370441130067_2_alg».proof.Proof.LibPlainMatmul
import proofs.«113988_j31370441130067_2_alg».proof.Proof.LibColumn
import proofs.«113988_j31370441130067_2_alg».proof.Proof.LibBiasRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Reg1

open Cert.KernelIdeal Cert.KernelIdeal.Gen

theorem hz : (![0, 0] : Fin 2 → Nat) = fun _ => 0 := funext fun a => by fin_cases a <;> rfl

/-! ## The body's product, entry by entry -/

abbrev D1 := dot_S5000x64_S64x32_S5000x32_1_0_0_1_n_n

theorem d1_l0 (i : S5000x32.Idx) (q : D1.contr.Idx) : (D1.lhsIdx i q 0).val = (i 0).val := by
  unfold DotDims.lhsIdx
  rw [dif_neg (show ¬(0 : Fin S5000x64.rank) ∈ D1.lhsBatch by decide), dif_pos (show (0 : Fin S5000x64.rank) ∈ D1.lhsNonContracting by decide)]
  rfl
theorem d1_l1 (i : S5000x32.Idx) (q : D1.contr.Idx) : (D1.lhsIdx i q 1).val = (q ⟨0, by decide⟩).val :=
  D1.lhsIdx_val_of_single rfl i q
theorem d1_r0 (i : S5000x32.Idx) (q : D1.contr.Idx) : (D1.rhsIdx i q 0).val = (q ⟨0, by decide⟩).val :=
  D1.rhsIdx_val_of_single rfl i q
theorem d1_r1 (i : S5000x32.Idx) (q : D1.contr.Idx) : (D1.rhsIdx i q 1).val = (i 1).val := by
  unfold DotDims.rhsIdx
  rw [dif_neg (show ¬(1 : Fin S64x32.rank) ∈ D1.rhsBatch by decide), dif_pos (show (1 : Fin S64x32.rank) ∈ D1.rhsNonContracting by decide)]
  rfl

/-- What the body stores at (p, q) of its block: row p of the block, scaled by the factor column's entry of row p,
    shifted by the bias row and clamped below at zero, against column q of the weights; times the factor column's
    entry of row p. -/
theorem pay_apply (xd : Vec Ideal S5000x1 .f32) (xa : Vec Ideal S5000x64 .f32) (xb : Vec Ideal S1x64 .f32)
    (xw : Vec Ideal S64x32 .f32) (p : Fin 5000) (q : Fin 32) :
    k1_pay1 xd xa xb xw (ix2 p q)
      = (∑ k : Fin 64, max (xa (ix2 p k) * xd (ix2 p (0 : Fin 1)) + xb (ix2 (0 : Fin 1) k)) 0 * xw (ix2 k q))
          * xd (ix2 p (0 : Fin 1)) := by
  unfold k1_pay1
  refine (mulf_apply _ _ _).trans ?_
  refine congrArg₂ (· * ·) ?_ ?_
  · refine (Cert.LibPlainMatmul.matmul_zero_ix2 D1 none rfl rfl d1_l0 d1_l1 d1_r0 d1_r1 _ _ p q).trans ?_
    refine Finset.sum_congr rfl fun k _ => ?_
    refine congrArg₂ (· * ·) ?_ rfl
    refine (truncf_apply (ψ := .bf16) _ bitsLt_bf16_f32 _).trans ?_
    refine (maximumf_apply _ _ _).trans ?_
    refine congrArg₂ max ?_ ?_
    · refine (addf_apply _ _ _).trans ?_
      refine congrArg₂ (· + ·) ?_ ?_
      · refine (mulf_apply _ _ _).trans ?_
        refine congrArg₂ (· * ·) ?_ ?_
        · exact congrFun (shapeCast_self _ _) _
        · refine (Cert.LibColumn.broadcastTo_a1_ab_apply _ broadcasts_S5000x1_S5000x64 p k).trans ?_
          exact congrFun (shapeCast_self _ _) _
      · refine (broadcastTo_1b_ab_apply _ broadcasts_S1x64_S5000x64 p k).trans ?_
        exact congrFun (shapeCast_self _ _) _
    · refine (broadcast_apply _ _).trans ?_
      exact Ideal.ofBits_zero_f32
  · refine (Cert.LibColumn.broadcastTo_a1_ab_apply _ broadcasts_S5000x1_S5000x32 p q).trans ?_
    exact congrFun (shapeCast_self _ _) _

/-! ## The blocks of the arrays -/

variable (V : (c : Dev nD) → (b : Ref sig .tc) → Buf (Elt Ideal) ((c : Thread nD τ).loc b))

theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregated block at point t is rows 5000·t … of the aggregated array. -/
theorem blk_a (c : Dev nD) (t : Fin cfg1.N) (x : S5000x64.Idx) (k : S50000x64.Idx)
    (hk0 : (k 0).val = 5000 * t.val + (x 0).val) (hk1 : (k 1).val = (x 1).val) :
    (iblk1 V c 0 t : Vec Ideal S5000x64 .f32) x = (V c main_v23 : S50000x64.Idx → EReal) k := by
  obtain ⟨e0, e1, -⟩ := idx_facts t
  unfold iblk1
  rw [View.read_apply]
  show V c main_v23 _ = V c main_v23 _
  congr 1
  funext a
  apply Fin.ext
  match a with
  | ⟨0, _⟩ => show win1_0.index t 0 * 5000 + 1 * (x 0).val = (k 0).val; rw [e0, hk0]; omega
  | ⟨1, _⟩ => show win1_0.index t 1 * 64 + 1 * (x 1).val = (k 1).val; rw [e1, hk1]; omega

/-- The factor block at point t is rows 5000·t … of the factor column. -/
theorem blk_d (c : Dev nD) (t : Fin cfg1.N) (x : S5000x1.Idx) (k : S50000x1.Idx)
    (hk0 : (k 0).val = 5000 * t.val + (x 0).val) (hk1 : (k 1).val = (x 1).val) :
    (iblk1 V c 1 t : Vec Ideal S5000x1 .f32) x = (V c main_v12 : S50000x1.Idx → EReal) k := by
  obtain ⟨-, -, e0, e1, -⟩ := idx_facts t
  unfold iblk1
  rw [View.read_apply]
  show V c main_v12 _ = V c main_v12 _
  congr 1
  funext a
  apply Fin.ext
  match a with
  | ⟨0, _⟩ => show win1_1.index t 0 * 5000 + 1 * (x 0).val = (k 0).val; rw [e0, hk0]; omega
  | ⟨1, _⟩ => show win1_1.index t 1 * 1 + 1 * (x 1).val = (k 1).val; rw [e1, hk1]; omega

/-- The bias block at every point is the whole bias row. -/
theorem blk_b (c : Dev nD) (t : Fin cfg1.N) (x : S1x64.Idx) :
    (iblk1 V c 2 t : Vec Ideal S1x64 .f32) x = (V c main_v24 : S1x64.Idx → EReal) x := by
  obtain ⟨-, -, -, -, e0, e1, -⟩ := idx_facts t
  unfold iblk1
  rw [View.read_apply]
  show V c main_v24 _ = V c main_v24 _
  congr 1
  funext a
  apply Fin.ext
  match a with
  | ⟨0, _⟩ => show win1_2.index t 0 * 1 + 1 * (x 0).val = (x 0).val; rw [e0]; omega
  | ⟨1, _⟩ => show win1_2.index t 1 * 64 + 1 * (x 1).val = (x 1).val; rw [e1]; omega

/-- The weight block at every point is the whole weight array. -/
theorem blk_w (c : Dev nD) (t : Fin cfg1.N) (x : S64x32.Idx) :
    (iblk1 V c 3 t : Vec Ideal S64x32 .f32) x = (V c main_arg4 : S64x32.Idx → EReal) x := by
  obtain ⟨-, -, -, -, -, -, e0, e1, -⟩ := idx_facts t
  unfold iblk1
  rw [View.read_apply]
  show V c main_arg4 _ = V c main_arg4 _
  congr 1
  funext a
  apply Fin.ext
  match a with
  | ⟨0, _⟩ => show win1_3.index t 0 * 64 + 1 * (x 0).val = (x 0).val; rw [e0]; omega
  | ⟨1, _⟩ => show win1_3.index t 1 * 32 + 1 * (x 1).val = (x 1).val; rw [e1]; omega

/-! ## The output array -/

/-- The four arrays the launch reads, as it finds them: the aggregated array, the factor column, the bias row, the
    weights. -/
abbrev aA (c : Dev nD) : S50000x64.Idx → EReal := V c main_v23
abbrev aD (c : Dev nD) : S50000x1.Idx → EReal := V c main_v12
abbrev aB (c : Dev nD) : S1x64.Idx → EReal := V c main_v24
abbrev aW (c : Dev nD) : S64x32.Idx → EReal := V c main_arg4

/-- The launch's output as one function of the arrays it finds. -/
def out (c : Dev nD) : S50000x32.Idx → EReal := fun i =>
  (∑ k : Fin 64, max (aA V c (ix2 ⟨(i 0).val, idx2_lt0 i⟩ k) * aD V c (ix2 ⟨(i 0).val, idx2_lt0 i⟩ (0 : Fin 1))
      + aB V c (ix2 (0 : Fin 1) k)) 0 * aW V c (ix2 k ⟨(i 1).val, idx2_lt1 i⟩))
    * aD V c (ix2 ⟨(i 0).val, idx2_lt0 i⟩ (0 : Fin 1))

theorem out_apply (c : Dev nD) (p : Fin 50000) (q : Fin 32) :
    out V c (ix2 p q) = (∑ k : Fin 64, max (aA V c (ix2 p k) * aD V c (ix2 p (0 : Fin 1)) + aB V c (ix2 (0 : Fin 1) k)) 0 * aW V c (ix2 k q)) * aD V c (ix2 p (0 : Fin 1)) := rfl

/-- What point t writes back is block t of that function. -/
theorem flushed_eq (c : Dev nD) (t : Fin cfg1.N) :
    (dat1 V c).flushed 4 t = ((cfg1.win 4).blk t).view.read (Elt Ideal) (out V c) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz, View.ld_unit_zero (S := S1x64) hz, View.ld_unit_zero (S := S64x32) hz]
  obtain ⟨-, -, -, -, -, -, -, -, e0, e1⟩ := idx_facts t
  have hN : cfg1.N = 10 := N_1
  have ht := t.isLt
  funext j
  obtain ⟨p, q, rfl⟩ : ∃ (p : Fin 5000) (q : Fin 32), j = ix2 p q := ⟨j 0, j 1, eq_ix2 j⟩
  show k1_pay1 (iblk1 V c 1 t) (iblk1 V c 0 t) (iblk1 V c 2 t) (iblk1 V c 3 t) (ix2 p q) = out V c (((cfg1.win 4).blk t).view.emb (ix2 p q))
  have hemb : ((cfg1.win 4).blk t).view.emb (ix2 p q) = ix2 (⟨5000 * t.val + p.val, by omega⟩ : Fin 50000) q := by
    funext a
    apply Fin.ext
    match a with
    | ⟨0, _⟩ => show win1_4.index t 0 * 5000 + 1 * p.val = 5000 * t.val + p.val; rw [e0]; omega
    | ⟨1, _⟩ => show win1_4.index t 1 * 32 + 1 * q.val = q.val; rw [e1]; omega
  rw [hemb, out_apply]
  refine (pay_apply _ _ _ _ p q).trans ?_
  refine congrArg₂ (· * ·) (Finset.sum_congr rfl fun k _ => congrArg₂ (· * ·) (congrArg₂ max (congrArg₂ (· + ·) (congrArg₂ (· * ·) ?_ ?_) ?_) rfl) ?_) ?_
  · exact blk_a V c t (ix2 p k) _ rfl rfl
  · exact blk_d V c t (ix2 p 0) _ rfl rfl
  · exact blk_b V c t (ix2 0 k)
  · exact blk_w V c t (ix2 k q)
  · exact blk_d V c t (ix2 p 0) _ rfl rfl

theorem mem_blk (t : Fin cfg1.N) (i : S50000x32.Idx) :
    i ∈ ((cfg1.win 4).blk t).view.set ↔ ∀ a : Fin 2, win1_4.index t a * S5000x32.size a ≤ (i a).val ∧ (i a).val < win1_4.index t a * S5000x32.size a + S5000x32.size a := by
  show i ∈ ((View.whole main_v25).slice (win1_4.rect t)).set ↔ _
  rw [View.set_slice_whole, Rect.mem_set_unit]
  exact Iff.rfl

/-- The output array after the launch. -/
theorem final (c : Dev nD) : (dat1 V c).arrAt 4 cfg1.N = out V c :=
  (dat1 V c).arrAt_eq_of_cover 4 (out V c) (fun t _ => flushed_eq V c t) fun i => by
    have hN : cfg1.N = 10 := N_1
    have hi0 : (i 0).val < 50000 := (i 0).isLt
    have hi1 : (i 1).val < 32 := (i 1).isLt
    let t : Fin cfg1.N := ⟨(i 0).val / 5000, by rw [hN]; omega⟩
    obtain ⟨-, -, -, -, -, -, -, -, e0, e1⟩ := idx_facts t
    refine ⟨t, flush1_4 t, ?_⟩
    rw [mem_blk]
    intro a
    match a with
    | ⟨0, _⟩ => show win1_4.index t 0 * 5000 ≤ (i 0).val ∧ (i 0).val < win1_4.index t 0 * 5000 + 5000; rw [e0]; show (i 0).val / 5000 * 5000 ≤ (i 0).val ∧ (i 0).val < (i 0).val / 5000 * 5000 + 5000; omega
    | ⟨1, _⟩ => show win1_4.index t 1 * 32 ≤ (i 1).val ∧ (i 1).val < win1_4.index t 1 * 32 + 32; rw [e1]; omega

end Cert.KernelIdeal.Reg1

end
-- ==== Proof.Region2.lean ====
/-
  The third launch: scale, shift and clamp, as one function of the arrays the launch finds.

  The launch tiles the 50000 rows into 10 blocks of 5000. At a block the body scales row p of the block of the
  aggregated array (5000×32) by entry (p, 0) of the block of the factor column (5000×1), adds the one-row bias
  (1×32) to every row and takes the maximum with zero. Since row p of block t is row 5000·t + p of the arrays, what the
  launch leaves in its output array is, at (i, c), the maximum of zero and aggregated (i, c) · factor (i, 0) + bias (0, c).
-/
import proofs.«113988_j31370441130067_2_alg».proof.Proof.Gen.KernelIdeal.Frame
import proofs.«113988_j31370441130067_2_alg».proof.Proof.LibPlainMatmul
import proofs.«113988_j31370441130067_2_alg».proof.Proof.LibColumn
import proofs.«113988_j31370441130067_2_alg».proof.Proof.LibBiasRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Reg2

open Cert.KernelIdeal Cert.KernelIdeal.Gen

theorem hz : (![0, 0] : Fin 2 → Nat) = fun _ => 0 := funext fun a => by fin_cases a <;> rfl

/-! ## The body's value, entry by entry -/

/-- What the body stores at (p, q) of its block: the block's entry times the factor column's entry of row p, plus the
    bias row's entry of column q, clamped below at zero. -/
theorem pay_apply (x0 : Vec Ideal S5000x32 .f32) (x1 : Vec Ideal S5000x1 .f32) (x2 : Vec Ideal S1x32 .f32)
    (p : Fin 5000) (q : Fin 32) :
    k2_pay1 x0 x1 x2 (ix2 p q) = max (x0 (ix2 p q) * x1 (ix2 p (0 : Fin 1)) + x2 (ix2 (0 : Fin 1) q)) 0 := by
  unfold k2_pay1
  refine (maximumf_apply _ _ _).trans ?_
  refine congrArg₂ max ?_ ?_
  · refine (addf_apply _ _ _).trans ?_
    refine congrArg₂ (· + ·) ?_ ?_
    · refine (mulf_apply _ _ _).trans ?_
      refine congrArg₂ (· * ·) ?_ ?_
      · exact congrFun (shapeCast_self _ _) _
      · refine (Cert.LibColumn.broadcastTo_a1_ab_apply _ broadcasts_S5000x1_S5000x32 p q).trans ?_
        exact congrFun (shapeCast_self _ _) _
    · refine (broadcastTo_1b_ab_apply _ broadcasts_S1x32_S5000x32 p q).trans ?_
      exact congrFun (shapeCast_self _ _) _
  · refine (broadcast_apply _ _).trans ?_
    exact Ideal.ofBits_zero_f32

/-! ## The blocks of the arrays -/

variable (V : (c : Dev nD) → (b : Ref sig .tc) → Buf (Elt Ideal) ((c : Thread nD τ).loc b))

theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The aggregated block at point t is rows 5000·t … of the aggregated array. -/
theorem blk_a (c : Dev nD) (t : Fin cfg2.N) (x : S5000x32.Idx) (k : S50000x32.Idx)
    (hk0 : (k 0).val = 5000 * t.val + (x 0).val) (hk1 : (k 1).val = (x 1).val) :
    (iblk2 V c 0 t : Vec Ideal S5000x32 .f32) x = (V c main_v35 : S50000x32.Idx → EReal) k := by
  obtain ⟨e0, e1, -⟩ := idx_facts t
  unfold iblk2
  rw [View.read_apply]
  show V c main_v35 _ = V c main_v35 _
  congr 1
  funext a
  apply Fin.ext
  match a with
  | ⟨0, _⟩ => show win2_0.index t 0 * 5000 + 1 * (x 0).val = (k 0).val; rw [e0, hk0]; omega
  | ⟨1, _⟩ => show win2_0.index t 1 * 32 + 1 * (x 1).val = (k 1).val; rw [e1, hk1]; omega

/-- The factor block at point t is rows 5000·t … of the factor column. -/
theorem blk_d (c : Dev nD) (t : Fin cfg2.N) (x : S5000x1.Idx) (k : S50000x1.Idx)
    (hk0 : (k 0).val = 5000 * t.val + (x 0).val) (hk1 : (k 1).val = (x 1).val) :
    (iblk2 V c 1 t : Vec Ideal S5000x1 .f32) x = (V c main_v12 : S50000x1.Idx → EReal) k := by
  obtain ⟨-, -, e0, e1, -⟩ := idx_facts t
  unfold iblk2
  rw [View.read_apply]
  show V c main_v12 _ = V c main_v12 _
  congr 1
  funext a
  apply Fin.ext
  match a with
  | ⟨0, _⟩ => show win2_1.index t 0 * 5000 + 1 * (x 0).val = (k 0).val; rw [e0, hk0]; omega
  | ⟨1, _⟩ => show win2_1.index t 1 * 1 + 1 * (x 1).val = (k 1).val; rw [e1, hk1]; omega

/-- The bias block at every point is the whole bias row. -/
theorem blk_b (c : Dev nD) (t : Fin cfg2.N) (x : S1x32.Idx) :
    (iblk2 V c 2 t : Vec Ideal S1x32 .f32) x = (V c main_v36 : S1x32.Idx → EReal) x := by
  obtain ⟨-, -, -, -, e0, e1, -⟩ := idx_facts t
  unfold iblk2
  rw [View.read_apply]
  show V c main_v36 _ = V c main_v36 _
  congr 1
  funext a
  apply Fin.ext
  match a with
  | ⟨0, _⟩ => show win2_2.index t 0 * 1 + 1 * (x 0).val = (x 0).val; rw [e0]; omega
  | ⟨1, _⟩ => show win2_2.index t 1 * 32 + 1 * (x 1).val = (x 1).val; rw [e1]; omega

/-! ## The output array -/

/-- The three arrays the launch reads, as it finds them: the aggregated array, the factor column, the bias row. -/
abbrev aA (c : Dev nD) : S50000x32.Idx → EReal := V c main_v35
abbrev aD (c : Dev nD) : S50000x1.Idx → EReal := V c main_v12
abbrev aB (c : Dev nD) : S1x32.Idx → EReal := V c main_v36

/-- The launch's output as one function of the arrays it finds. -/
def out (c : Dev nD) : S50000x32.Idx → EReal := fun i =>
  max (aA V c (ix2 ⟨(i 0).val, idx2_lt0 i⟩ ⟨(i 1).val, idx2_lt1 i⟩) * aD V c (ix2 ⟨(i 0).val, idx2_lt0 i⟩ (0 : Fin 1))
    + aB V c (ix2 (0 : Fin 1) ⟨(i 1).val, idx2_lt1 i⟩)) 0

theorem out_apply (c : Dev nD) (p : Fin 50000) (q : Fin 32) :
    out V c (ix2 p q) = max (aA V c (ix2 p q) * aD V c (ix2 p (0 : Fin 1)) + aB V c (ix2 (0 : Fin 1) q)) 0 := rfl

/-- What point t writes back is block t of that function. -/
theorem flushed_eq (c : Dev nD) (t : Fin cfg2.N) :
    (dat2 V c).flushed 3 t = ((cfg2.win 3).blk t).view.read (Elt Ideal) (out V c) := by
  show (cfg2.win 3).cut (grid2.coords t) ((dat2 V c).after 3 t) = _
  rw [after2_3]
  unfold out2_3
  rw [View.canon_unit_zero hz]
  simp only [View.ld_unit_zero (S := S5000x32) hz, View.ld_unit_zero (S := S5000x1) hz, View.ld_unit_zero (S := S1x32) hz]
  obtain ⟨-, -, -, -, -, -, e0, e1⟩ := idx_facts t
  have hN : cfg2.N = 10 := N_2
  have ht := t.isLt
  funext j
  obtain ⟨p, q, rfl⟩ : ∃ (p : Fin 5000) (q : Fin 32), j = ix2 p q := ⟨j 0, j 1, eq_ix2 j⟩
  show k2_pay1 (iblk2 V c 0 t) (iblk2 V c 1 t) (iblk2 V c 2 t) (ix2 p q) = out V c (((cfg2.win 3).blk t).view.emb (ix2 p q))
  have hemb : ((cfg2.win 3).blk t).view.emb (ix2 p q) = ix2 (⟨5000 * t.val + p.val, by omega⟩ : Fin 50000) q := by
    funext a
    apply Fin.ext
    match a with
    | ⟨0, _⟩ => show win2_3.index t 0 * 5000 + 1 * p.val = 5000 * t.val + p.val; rw [e0]; omega
    | ⟨1, _⟩ => show win2_3.index t 1 * 32 + 1 * q.val = q.val; rw [e1]; omega
  rw [hemb, out_apply]
  refine (pay_apply _ _ _ p q).trans ?_
  refine congrArg₂ max (congrArg₂ (· + ·) (congrArg₂ (· * ·) ?_ ?_) ?_) rfl
  · exact blk_a V c t (ix2 p q) _ rfl rfl
  · exact blk_d V c t (ix2 p 0) _ rfl rfl
  · exact blk_b V c t (ix2 0 q)

theorem mem_blk (t : Fin cfg2.N) (i : S50000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v37).slice (win2_3.rect t)).set ↔ _
  rw [View.set_slice_whole, Rect.mem_set_unit]
  exact Iff.rfl

/-- The output array after the launch. -/
theorem final (c : Dev nD) : (dat2 V c).arrAt 3 cfg2.N = out V c :=
  (dat2 V c).arrAt_eq_of_cover 3 (out V c) (fun t _ => flushed_eq V c t) fun i => by
    have hN : cfg2.N = 10 := N_2
    have hi0 : (i 0).val < 50000 := (i 0).isLt
    have hi1 : (i 1).val < 32 := (i 1).isLt
    let t : Fin cfg2.N := ⟨(i 0).val / 5000, by rw [hN]; omega⟩
    obtain ⟨-, -, -, -, -, -, e0, e1⟩ := idx_facts t
    refine ⟨t, flush2_3 t, ?_⟩
    rw [mem_blk]
    intro a
    match a with
    | ⟨0, _⟩ => show win2_3.index t 0 * 5000 ≤ (i 0).val ∧ (i 0).val < win2_3.index t 0 * 5000 + 5000; rw [e0]; show (i 0).val / 5000 * 5000 ≤ (i 0).val ∧ (i 0).val < (i 0).val / 5000 * 5000 + 5000; omega
    | ⟨1, _⟩ => show win2_3.index t 1 * 32 ≤ (i 1).val ∧ (i 1).val < win2_3.index t 1 * 32 + 32; rw [e1]; omega

end Cert.KernelIdeal.Reg2

end
-- ==== Proof.KHost2.lean ====
/-
  The kernel program from its second launch to the third, read as the mathematics.

  The second launch finishes the first layer in place (what arrived, times the node's factor, plus the bias, clipped at
  zero) and at once projects it by the second weight matrix, scaled again by the node's factor. The host sends these
  rows along the messages as before and lays the second bias out as a row; the third launch finishes the second layer.
-/
import proofs.«113988_j31370441130067_2_alg».proof.Proof.KHost1
import proofs.«113988_j31370441130067_2_alg».proof.Proof.Region1
import proofs.«113988_j31370441130067_2_alg».proof.Proof.Region2

set_option maxRecDepth 16384

noncomputable section

open Idealize.ShloMosaic Idealize.ShloMosaic.TcCoe Idealize.SL.Sem Idealize.ShloMosaic.ValueIdx
open Idealize.ShloMosaic.StableHlo
open scoped BigOperators

namespace Cert.KernelIdeal.HostV

open Cert.KernelIdeal Cert.KernelIdeal.Gen

variable (m : (ℓ : Loc nD τ sig) → Buf (Elt Ideal) ℓ) (ρ : Dev nD → PrngReg)

/-! ## The kernel's stages as functions of the arguments -/

/-- The features' scaled projection. -/
def H1 (c : Dev nD) : Fin 50000 → Fin 64 → EReal := Cert.Gcn.pre (dstW m c) (X0 m c) (M1 m c)
/-- The first layer, finished. -/
def Y1 (c : Dev nD) : Fin 50000 → Fin 64 → EReal :=
  Cert.Gcn.post (dstW m c) (Cert.Gcn.aggKer (srcW m c) (dstW m c) (H1 m c)) (B1 m c)
/-- Its scaled projection. -/
def H2 (c : Dev nD) : Fin 50000 → Fin 32 → EReal := Cert.Gcn.pre (dstW m c) (Y1 m c) (M2 m c)
/-- The second layer, finished: the latent code. -/
def Z2 (c : Dev nD) : Fin 50000 → Fin 32 → EReal :=
  Cert.Gcn.post (dstW m c) (Cert.Gcn.aggKer (srcW m c) (dstW m c) (H2 m c)) (B2 m c)

theorem W3_v23_apply' (c : Dev nD) (i : Fin 50000) (q : Fin 64) :
    (W3 m ρ c (Proc.devRef .tc main_v23) : S50000x64.Idx → EReal) (ix2 i q)
      = Cert.Gcn.aggKer (srcW m c) (dstW m c) (H1 m c) i q := W3_v23_apply m ρ c i q

/-! ## After the second launch -/

theorem W4_v25 (c : Dev nD) : W4 m ρ c (Proc.devRef .tc main_v25) = Cert.KernelIdeal.Reg1.out (V3 m ρ) c :=
  (W4_arr m ρ c 4).trans (Cert.KernelIdeal.Reg1.final (V3 m ρ) c)

/-- The second launch leaves the first layer's scaled projection. -/
theorem W4_v25_apply (c : Dev nD) (p : Fin 50000) (q : Fin 32) :
    (W4 m ρ c (Proc.devRef .tc main_v25) : S50000x32.Idx → EReal) (ix2 p q) = H2 m c p q := by
  refine (congrFun (W4_v25 m ρ c) (ix2 p q)).trans ?_
  rw [Cert.KernelIdeal.Reg1.out_apply]
  show _ = (∑ k : Fin 64, max (Cert.Gcn.aggKer (srcW m c) (dstW m c) (H1 m c) p k * Cert.Gcn.dis (dstW m c) p + B1 m c k) 0 * M2 m c k q)
    * Cert.Gcn.dis (dstW m c) p
  refine congrArg₂ (· * ·) (Finset.sum_congr rfl fun k _ => congrArg₂ (· * ·) (congrArg (max · 0) (congrArg₂ (· + ·) (congrArg₂ (· * ·) ?_ ?_) ?_)) ?_) ?_
  · exact W3_v23_apply m ρ c p k
  · exact W3_v12_apply m ρ c p
  · exact W3_v24_apply m ρ c k
  · exact congrFun (W3_arg4 m ρ c) _
  · exact W3_v12_apply m ρ c p

theorem W4_v3 (c : Dev nD) : W4 m ρ c (Proc.devRef .tc main_v3) = srcA (A1 m c) :=
  (W4_of_ne m ρ c main_v3 (by decide)).trans (W3_v3 m ρ c)
theorem W4_v6 (c : Dev nD) : W4 m ρ c (Proc.devRef .tc main_v6) = dstA (A1 m c) :=
  (W4_of_ne m ρ c main_v6 (by decide)).trans (W3_v6 m ρ c)
theorem W4_v12 (c : Dev nD) : W4 m ρ c (Proc.devRef .tc main_v12) = W3 m ρ c (Proc.devRef .tc main_v12) :=
  (W4_arr m ρ c 1).trans (((dat1 (V3 m ρ) c).arrAt_in 1 rfl _).trans (A_eq1 (V3 m ρ) c 1))

/-- The second bias reaches the host stretch before the third launch as launched. -/
theorem W4_arg5 (c : Dev nD) : W4 m ρ c (Proc.devRef .tc main_arg5) = A5 m c := by
  refine (W4_of_ne m ρ c main_arg5 (by decide)).trans ?_
  show StableHlo.after hostOps1 (W2 m ρ c) (Proc.devRef .tc main_arg5) = _
  after_results
  refine (W2_of_ne m ρ c main_arg5 (by decide)).trans ?_
  show StableHlo.after hostOps0 (W0 m ρ c) (Proc.devRef .tc main_arg5) = _
  after_results

/-! ## Before the third launch -/

/-- What arrives at node i after the second sending. -/
theorem W5_v35_apply (c : Dev nD) (i : Fin 50000) (q : Fin 32) :
    (W5 m ρ c (Proc.devRef .tc main_v35) : S50000x32.Idx → EReal) (ix2 i q)
      = Cert.Gcn.aggKer (srcW m c) (dstW m c) (H2 m c) i q := by
  show StableHlo.after hostOps2 (W4 m ρ c) (Proc.devRef .tc main_v35) (ix2 i q) = _
  after_results
  rw [W4_v3 m ρ c, W4_v6 m ρ c]
  refine (Cert.GcnOps.scatter_rows (D := 32) scatter_S50000x32_S1650000x1_S1650000x32_1_0_0_1_wf bcast_S1650000_S1650000x1_0 _ _ _ i q).trans ?_
  unfold Cert.Gcn.aggKer
  refine congrArg₂ (· + ·) ?_ (Finset.sum_congr rfl fun e _ => if_congr Iff.rfl ?_ rfl)
  · rw [Cert.LibBroadcastIn.scalar_apply bcast_S_S50000x32]
    exact Cert.GcnOps.zero_word
  · refine (Cert.GcnOps.gather_rows (D := 32) gather_S50000x32_S1650000x1_S1650000x32_1_0_n_n_0_1_132_wf bcast_S1650000_S1650000x1_0 _ _ e q).trans ?_
    rw [Cert.GcnOps.wrap_apply bcast_S_S1650000]
    exact W4_v25_apply m ρ c _ q

/-- The second bias laid out as a row. -/
theorem W5_v36_apply (c : Dev nD) (k : Fin 32) :
    (W5 m ρ c (Proc.devRef .tc main_v36) : S1x32.Idx → EReal) (ix2 (0 : Fin 1) k) = B2 m c k := by
  show StableHlo.after hostOps2 (W4 m ρ c) (Proc.devRef .tc main_v36) (ix2 (0 : Fin 1) k) = _
  after_results
  rw [W4_arg5 m ρ c]
  exact shapeCast_a_1a_apply _ shapeCasts_S32_S1x32 0 k

theorem W5_v12 (c : Dev nD) : W5 m ρ c (Proc.devRef .tc main_v12) = W4 m ρ c (Proc.devRef .tc main_v12) := by
  show StableHlo.after hostOps2 (W4 m ρ c) (Proc.devRef .tc main_v12) = _
  after_results

/-- The factor column is still the factors at the third launch. -/
theorem W5_v12_apply (c : Dev nD) (i : Fin 50000) :
    (W5 m ρ c (Proc.devRef .tc main_v12) : S50000x1.Idx → EReal) (ix2 i (0 : Fin 1)) = Cert.Gcn.dis (dstW m c) i :=
  (congrFun ((W5_v12 m ρ c).trans (W4_v12 m ρ c)) _).trans (W3_v12_apply m ρ c i)

/-! ## After the third launch -/

theorem W6_v37 (c : Dev nD) : W6 m ρ c (Proc.devRef .tc main_v37) = Cert.KernelIdeal.Reg2.out (V5 m ρ) c :=
  (W6_arr m ρ c 3).trans (Cert.KernelIdeal.Reg2.final (V5 m ρ) c)

/-- The third launch leaves the latent code. -/
theorem W6_v37_apply (c : Dev nD) (p : Fin 50000) (q : Fin 32) :
    (W6 m ρ c (Proc.devRef .tc main_v37) : S50000x32.Idx → EReal) (ix2 p q) = Z2 m c p q := by
  refine (congrFun (W6_v37 m ρ c) (ix2 p q)).trans ?_
  rw [Cert.KernelIdeal.Reg2.out_apply]
  show _ = max (Cert.Gcn.aggKer (srcW m c) (dstW m c) (H2 m c) p q * Cert.Gcn.dis (dstW m c) p + B2 m c q) 0
  refine congrArg (max · 0) (congrArg₂ (· + ·) (congrArg₂ (· * ·) ?_ ?_) ?_)
  · exact W5_v35_apply m ρ c p q
  · exact W5_v12_apply m ρ c p
  · exact W5_v36_apply m ρ c q

end Cert.KernelIdeal.HostV

end
-- ==== Proof.Region3.lean ====
/-
  The fourth launch: the two-layer decoder, as one function of the arrays the launch finds.

  The launch tiles the 50000 rows into 10 blocks of 5000. At a block the body multiplies the block of the encoded
  rows (5000×32) by the whole first weight matrix (32×64), adds the first one-row bias (1×64) to every row, takes the
  maximum with zero, multiplies the result by the whole second weight matrix (64×512), adds the second one-row bias
  (1×512) to every row and applies the logistic function entry by entry. Since row p of block t is row 5000·t + p of
  the encoded array, what the launch leaves in its output array is, at (i, c), the logistic function of
  (the sum over k of max ((the sum over j of encoded (i, j) · first weights (j, k)) + first bias (0, k)) 0
  · second weights (k, c)) + second bias (0, c).
-/
import proofs.«113988_j31370441130067_2_alg».proof.Proof.Gen.KernelIdeal.Frame
import proofs.«113988_j31370441130067_2_alg».proof.Proof.LibPlainMatmul
import proofs.«113988_j31370441130067_2_alg».proof.Proof.LibColumn
import proofs.«113988_j31370441130067_2_alg».proof.Proof.LibBiasRow
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Reg3

open Cert.KernelIdeal Cert.KernelIdeal.Gen

theorem hz : (![0, 0] : Fin 2 → Nat) = fun _ => 0 := funext fun a => by fin_cases a <;> rfl

/-! ## The body's two products, entry by entry -/

abbrev D3a := dot_S5000x32_S32x64_S5000x64_1_0_0_1_n_n

theorem d3a_l0 (i : S5000x64.Idx) (q : D3a.contr.Idx) : (D3a.lhsIdx i q 0).val = (i 0).val := by
  unfold DotDims.lhsIdx
  rw [dif_neg (show ¬(0 : Fin S5000x32.rank) ∈ D3a.lhsBatch by decide), dif_pos (show (0 : Fin S5000x32.rank) ∈ D3a.lhsNonContracting by decide)]
  rfl
theorem d3a_l1 (i : S5000x64.Idx) (q : D3a.contr.Idx) : (D3a.lhsIdx i q 1).val = (q ⟨0, by decide⟩).val :=
  D3a.lhsIdx_val_of_single rfl i q
theorem d3a_r0 (i : S5000x64.Idx) (q : D3a.contr.Idx) : (D3a.rhsIdx i q 0).val = (q ⟨0, by decide⟩).val :=
  D3a.rhsIdx_val_of_single rfl i q
theorem d3a_r1 (i : S5000x64.Idx) (q : D3a.contr.Idx) : (D3a.rhsIdx i q 1).val = (i 1).val := by
  unfold DotDims.rhsIdx
  rw [dif_neg (show ¬(1 : Fin S32x64.rank) ∈ D3a.rhsBatch by decide), dif_pos (show (1 : Fin S32x64.rank) ∈ D3a.rhsNonContracting by decide)]
  rfl

abbrev D3b := dot_S5000x64_S64x512_S5000x512_1_0_0_1_n_n

theorem d3b_l0 (i : S5000x512.Idx) (q : D3b.contr.Idx) : (D3b.lhsIdx i q 0).val = (i 0).val := by
  unfold DotDims.lhsIdx
  rw [dif_neg (show ¬(0 : Fin S5000x64.rank) ∈ D3b.lhsBatch by decide), dif_pos (show (0 : Fin S5000x64.rank) ∈ D3b.lhsNonContracting by decide)]
  rfl
theorem d3b_l1 (i : S5000x512.Idx) (q : D3b.contr.Idx) : (D3b.lhsIdx i q 1).val = (q ⟨0, by decide⟩).val :=
  D3b.lhsIdx_val_of_single rfl i q
theorem d3b_r0 (i : S5000x512.Idx) (q : D3b.contr.Idx) : (D3b.rhsIdx i q 0).val = (q ⟨0, by decide⟩).val :=
  D3b.rhsIdx_val_of_single rfl i q
theorem d3b_r1 (i : S5000x512.Idx) (q : D3b.contr.Idx) : (D3b.rhsIdx i q 1).val = (i 1).val := by
  unfold DotDims.rhsIdx
  rw [dif_neg (show ¬(1 : Fin S64x512.rank) ∈ D3b.rhsBatch by decide), dif_pos (show (1 : Fin S64x512.rank) ∈ D3b.rhsNonContracting by decide)]
  rfl

/-- What the body stores at (p, q) of its block: row p of the encoded block against the first weights, shifted by the
    first bias row and clamped below at zero, against column q of the second weights, shifted by the second bias row's
    entry of column q, through the logistic function. -/
theorem pay_apply (x0 : Vec Ideal S5000x32 .f32) (x1 : Vec Ideal S32x64 .f32) (x2 : Vec Ideal S1x64 .f32)
    (x3 : Vec Ideal S64x512 .f32) (x4 : Vec Ideal S1x512 .f32) (p : Fin 5000) (q : Fin 512) :
    k3_pay1 x0 x1 x2 x3 x4 (ix2 p q)
      = Ideal.logistic ((∑ k : Fin 64, max ((∑ j : Fin 32, x0 (ix2 p j) * x1 (ix2 j k)) + x2 (ix2 (0 : Fin 1) k)) 0
          * x3 (ix2 k q)) + x4 (ix2 (0 : Fin 1) q)) := by
  unfold k3_pay1
  change Ideal.logistic _ = Ideal.logistic _
  refine congrArg Ideal.logistic ?_
  refine (addf_apply _ _ _).trans ?_
  refine congrArg₂ (· + ·) ?_ ?_
  · refine (Cert.LibPlainMatmul.matmul_zero_ix2 D3b none rfl rfl d3b_l0 d3b_l1 d3b_r0 d3b_r1 _ _ p q).trans ?_
    refine Finset.sum_congr rfl fun k _ => ?_
    refine congrArg₂ (· * ·) ?_ rfl
    refine (truncf_apply (ψ := .bf16) _ bitsLt_bf16_f32 _).trans ?_
    refine (maximumf_apply _ _ _).trans ?_
    refine congrArg₂ max ?_ ?_
    · refine (addf_apply _ _ _).trans ?_
      refine congrArg₂ (· + ·) ?_ ?_
      · refine (Cert.LibPlainMatmul.matmul_zero_ix2 D3a none rfl rfl d3a_l0 d3a_l1 d3a_r0 d3a_r1 _ _ p k).trans ?_
        refine Finset.sum_congr rfl fun j _ => ?_
        refine congrArg₂ (· * ·) ?_ rfl
        refine (truncf_apply (ψ := .bf16) _ bitsLt_bf16_f32 _).trans ?_
        exact congrFun (shapeCast_self _ _) _
      · refine (broadcastTo_1b_ab_apply _ broadcasts_S1x64_S5000x64 p k).trans ?_
        exact congrFun (shapeCast_self _ _) _
    · refine (broadcast_apply _ _).trans ?_
      exact Ideal.ofBits_zero_f32
  · refine (broadcastTo_1b_ab_apply _ broadcasts_S1x512_S5000x512 p q).trans ?_
    exact congrFun (shapeCast_self _ _) _

/-! ## The blocks of the arrays -/

variable (V : (c : Dev nD) → (b : Ref sig .tc) → Buf (Elt Ideal) ((c : Thread nD τ).loc b))

theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The encoded block at point t is rows 5000·t … of the encoded array. -/
theorem blk_z (c : Dev nD) (t : Fin cfg3.N) (x : S5000x32.Idx) (k : S50000x32.Idx)
    (hk0 : (k 0).val = 5000 * t.val + (x 0).val) (hk1 : (k 1).val = (x 1).val) :
    (iblk3 V c 0 t : Vec Ideal S5000x32 .f32) x = (V c main_v37 : S50000x32.Idx → EReal) k := by
  obtain ⟨e0, e1, -⟩ := idx_facts t
  unfold iblk3
  rw [View.read_apply]
  show V c main_v37 _ = V c main_v37 _
  congr 1
  funext a
  apply Fin.ext
  match a with
  | ⟨0, _⟩ => show win3_0.index t 0 * 5000 + 1 * (x 0).val = (k 0).val; rw [e0, hk0]; omega
  | ⟨1, _⟩ => show win3_0.index t 1 * 32 + 1 * (x 1).val = (k 1).val; rw [e1, hk1]; omega

/-- The first weight block at every point is the whole first weight array. -/
theorem blk_w1 (c : Dev nD) (t : Fin cfg3.N) (x : S32x64.Idx) :
    (iblk3 V c 1 t : Vec Ideal S32x64 .f32) x = (V c main_arg6 : S32x64.Idx → EReal) x := by
  obtain ⟨-, -, e0, e1, -⟩ := idx_facts t
  unfold iblk3
  rw [View.read_apply]
  show V c main_arg6 _ = V c main_arg6 _
  congr 1
  funext a
  apply Fin.ext
  match a with
  | ⟨0, _⟩ => show win3_1.index t 0 * 32 + 1 * (x 0).val = (x 0).val; rw [e0]; omega
  | ⟨1, _⟩ => show win3_1.index t 1 * 64 + 1 * (x 1).val = (x 1).val; rw [e1]; omega

/-- The first bias block at every point is the whole first bias row. -/
theorem blk_b1 (c : Dev nD) (t : Fin cfg3.N) (x : S1x64.Idx) :
    (iblk3 V c 2 t : Vec Ideal S1x64 .f32) x = (V c main_v38 : S1x64.Idx → EReal) x := by
  obtain ⟨-, -, -, -, e0, e1, -⟩ := idx_facts t
  unfold iblk3
  rw [View.read_apply]
  show V c main_v38 _ = V c main_v38 _
  congr 1
  funext a
  apply Fin.ext
  match a with
  | ⟨0, _⟩ => show win3_2.index t 0 * 1 + 1 * (x 0).val = (x 0).val; rw [e0]; omega
  | ⟨1, _⟩ => show win3_2.index t 1 * 64 + 1 * (x 1).val = (x 1).val; rw [e1]; omega

/-- The second weight block at every point is the whole second weight array. -/
theorem blk_w2 (c : Dev nD) (t : Fin cfg3.N) (x : S64x512.Idx) :
    (iblk3 V c 3 t : Vec Ideal S64x512 .f32) x = (V c main_arg8 : S64x512.Idx → EReal) x := by
  obtain ⟨-, -, -, -, -, -, e0, e1, -⟩ := idx_facts t
  unfold iblk3
  rw [View.read_apply]
  show V c main_arg8 _ = V c main_arg8 _
  congr 1
  funext a
  apply Fin.ext
  match a with
  | ⟨0, _⟩ => show win3_3.index t 0 * 64 + 1 * (x 0).val = (x 0).val; rw [e0]; omega
  | ⟨1, _⟩ => show win3_3.index t 1 * 512 + 1 * (x 1).val = (x 1).val; rw [e1]; omega

/-- The second bias block at every point is the whole second bias row. -/
theorem blk_b2 (c : Dev nD) (t : Fin cfg3.N) (x : S1x512.Idx) :
    (iblk3 V c 4 t : Vec Ideal S1x512 .f32) x = (V c main_v39 : S1x512.Idx → EReal) x := by
  obtain ⟨-, -, -, -, -, -, -, -, e0, e1, -⟩ := idx_facts t
  unfold iblk3
  rw [View.read_apply]
  show V c main_v39 _ = V c main_v39 _
  congr 1
  funext a
  apply Fin.ext
  match a with
  | ⟨0, _⟩ => show win3_4.index t 0 * 1 + 1 * (x 0).val = (x 0).val; rw [e0]; omega
  | ⟨1, _⟩ => show win3_4.index t 1 * 512 + 1 * (x 1).val = (x 1).val; rw [e1]; omega

/-! ## The output array -/

/-- The five arrays the launch reads, as it finds them: the encoded rows, the first weights and bias row, the second
    weights and bias row. -/
abbrev aZ (c : Dev nD) : S50000x32.Idx → EReal := V c main_v37
abbrev aW1 (c : Dev nD) : S32x64.Idx → EReal := V c main_arg6
abbrev aB1 (c : Dev nD) : S1x64.Idx → EReal := V c main_v38
abbrev aW2 (c : Dev nD) : S64x512.Idx → EReal := V c main_arg8
abbrev aB2 (c : Dev nD) : S1x512.Idx → EReal := V c main_v39

/-- The launch's output as one function of the arrays it finds. -/
def out (c : Dev nD) : S50000x512.Idx → EReal := fun i =>
  Ideal.logistic ((∑ k : Fin 64, max ((∑ j : Fin 32, aZ V c (ix2 ⟨(i 0).val, idx2_lt0 i⟩ j) * aW1 V c (ix2 j k))
      + aB1 V c (ix2 (0 : Fin 1) k)) 0 * aW2 V c (ix2 k ⟨(i 1).val, idx2_lt1 i⟩))
    + aB2 V c (ix2 (0 : Fin 1) ⟨(i 1).val, idx2_lt1 i⟩))

theorem out_apply (c : Dev nD) (p : Fin 50000) (q : Fin 512) :
    out V c (ix2 p q) = Ideal.logistic ((∑ k : Fin 64, max ((∑ j : Fin 32, aZ V c (ix2 p j) * aW1 V c (ix2 j k)) + aB1 V c (ix2 (0 : Fin 1) k)) 0 * aW2 V c (ix2 k q)) + aB2 V c (ix2 (0 : Fin 1) q)) := rfl

/-- What point t writes back is block t of that function. -/
theorem flushed_eq (c : Dev nD) (t : Fin cfg3.N) :
    (dat3 V c).flushed 5 t = ((cfg3.win 5).blk t).view.read (Elt Ideal) (out V c) := by
  show (cfg3.win 5).cut (grid3.coords t) ((dat3 V c).after 5 t) = _
  rw [after3_5]
  unfold out3_5
  rw [View.canon_unit_zero hz]
  simp only [View.ld_unit_zero (S := S5000x32) hz, View.ld_unit_zero (S := S32x64) hz, View.ld_unit_zero (S := S1x64) hz, View.ld_unit_zero (S := S64x512) hz, View.ld_unit_zero (S := S1x512) hz]
  obtain ⟨-, -, -, -, -, -, -, -, -, -, e0, e1⟩ := idx_facts t
  have hN : cfg3.N = 10 := N_3
  have ht := t.isLt
  funext j
  obtain ⟨p, q, rfl⟩ : ∃ (p : Fin 5000) (q : Fin 512), j = ix2 p q := ⟨j 0, j 1, eq_ix2 j⟩
  show k3_pay1 (iblk3 V c 0 t) (iblk3 V c 1 t) (iblk3 V c 2 t) (iblk3 V c 3 t) (iblk3 V c 4 t) (ix2 p q) = out V c (((cfg3.win 5).blk t).view.emb (ix2 p q))
  have hemb : ((cfg3.win 5).blk t).view.emb (ix2 p q) = ix2 (⟨5000 * t.val + p.val, by omega⟩ : Fin 50000) q := by
    funext a
    apply Fin.ext
    match a with
    | ⟨0, _⟩ => show win3_5.index t 0 * 5000 + 1 * p.val = 5000 * t.val + p.val; rw [e0]; omega
    | ⟨1, _⟩ => show win3_5.index t 1 * 512 + 1 * q.val = q.val; rw [e1]; omega
  rw [hemb, out_apply]
  refine (pay_apply _ _ _ _ _ p q).trans ?_
  refine congrArg Ideal.logistic (congrArg₂ (· + ·) (Finset.sum_congr rfl fun k _ => congrArg₂ (· * ·) (congrArg₂ max (congrArg₂ (· + ·) (Finset.sum_congr rfl fun i _ => congrArg₂ (· * ·) ?_ ?_) ?_) rfl) ?_) ?_)
  · exact blk_z V c t (ix2 p i) _ rfl rfl
  · exact blk_w1 V c t (ix2 i k)
  · exact blk_b1 V c t (ix2 0 k)
  · exact blk_w2 V c t (ix2 k q)
  · exact blk_b2 V c t (ix2 0 q)

theorem mem_blk (t : Fin cfg3.N) (i : S50000x512.Idx) :
    i ∈ ((cfg3.win 5).blk t).view.set ↔ ∀ a : Fin 2, win3_5.index t a * S5000x512.size a ≤ (i a).val ∧ (i a).val < win3_5.index t a * S5000x512.size a + S5000x512.size a := by
  show i ∈ ((View.whole main_v40).slice (win3_5.rect t)).set ↔ _
  rw [View.set_slice_whole, Rect.mem_set_unit]
  exact Iff.rfl

/-- The output array after the launch. -/
theorem final (c : Dev nD) : (dat3 V c).arrAt 5 cfg3.N = out V c :=
  (dat3 V c).arrAt_eq_of_cover 5 (out V c) (fun t _ => flushed_eq V c t) fun i => by
    have hN : cfg3.N = 10 := N_3
    have hi0 : (i 0).val < 50000 := (i 0).isLt
    have hi1 : (i 1).val < 512 := (i 1).isLt
    let t : Fin cfg3.N := ⟨(i 0).val / 5000, by rw [hN]; omega⟩
    obtain ⟨-, -, -, -, -, -, -, -, -, -, e0, e1⟩ := idx_facts t
    refine ⟨t, flush3_5 t, ?_⟩
    rw [mem_blk]
    intro a
    match a with
    | ⟨0, _⟩ => show win3_5.index t 0 * 5000 ≤ (i 0).val ∧ (i 0).val < win3_5.index t 0 * 5000 + 5000; rw [e0]; show (i 0).val / 5000 * 5000 ≤ (i 0).val ∧ (i 0).val < (i 0).val / 5000 * 5000 + 5000; omega
    | ⟨1, _⟩ => show win3_5.index t 1 * 512 ≤ (i 1).val ∧ (i 1).val < win3_5.index t 1 * 512 + 512; rw [e1]; omega

end Cert.KernelIdeal.Reg3

end
-- ==== Proof.KHost3.lean ====
/-
  The kernel program's last launch, and its result as one function of the arguments.

  The host lays the two decoder biases out as rows; the last launch multiplies the latent code by the first decoder
  matrix, adds its bias, clips at zero, multiplies by the second decoder matrix, adds its bias and applies the
  logistic function. Put together with the earlier stages, the result buffer ends holding the decoder of the second
  layer of the first layer of the features, each layer in the kernel's arrangement.
-/
import proofs.«113988_j31370441130067_2_alg».proof.Proof.KHost2
import proofs.«113988_j31370441130067_2_alg».proof.Proof.Region3

set_option maxRecDepth 16384

noncomputable section

open Idealize.ShloMosaic Idealize.ShloMosaic.TcCoe Idealize.SL.Sem Idealize.ShloMosaic.ValueIdx
open Idealize.ShloMosaic.StableHlo
open scoped BigOperators

namespace Cert.KernelIdeal.HostV

open Cert.KernelIdeal Cert.KernelIdeal.Gen

variable (m : (ℓ : Loc nD τ sig) → Buf (Elt Ideal) ℓ) (ρ : Dev nD → PrngReg)

/-! ## The decoder's weights and biases reach the last launch as launched -/

theorem W6_arg (c : Dev nD) (b : Ref sig .tc)
    (h0 : StableHlo.after hostOps0 (W0 m ρ c) (Proc.devRef .tc b) = W0 m ρ c (Proc.devRef .tc b))
    (h1 : StableHlo.after hostOps1 (W2 m ρ c) (Proc.devRef .tc b) = W2 m ρ c (Proc.devRef .tc b))
    (h2 : StableHlo.after hostOps2 (W4 m ρ c) (Proc.devRef .tc b) = W4 m ρ c (Proc.devRef .tc b))
    (n0 : ∀ w, Pipeline.arrRef spec0 w ≠ b) (n1 : ∀ w, Pipeline.arrRef spec1 w ≠ b) (n2 : ∀ w, Pipeline.arrRef spec2 w ≠ b) :
    W6 m ρ c (Proc.devRef .tc b) = W0 m ρ c (Proc.devRef .tc b) :=
  (W6_of_ne m ρ c b n2).trans (h2.trans ((W4_of_ne m ρ c b n1).trans (h1.trans ((W2_of_ne m ρ c b n0).trans h0))))

theorem W6_arg6 (c : Dev nD) : W6 m ρ c (Proc.devRef .tc main_arg6) = A6 m c :=
  W6_arg m ρ c main_arg6 (by after_results) (by after_results) (by after_results) (by decide) (by decide) (by decide)
theorem W6_arg7 (c : Dev nD) : W6 m ρ c (Proc.devRef .tc main_arg7) = A7 m c :=
  W6_arg m ρ c main_arg7 (by after_results) (by after_results) (by after_results) (by decide) (by decide) (by decide)
theorem W6_arg8 (c : Dev nD) : W6 m ρ c (Proc.devRef .tc main_arg8) = A8 m c :=
  W6_arg m ρ c main_arg8 (by after_results) (by after_results) (by after_results) (by decide) (by decide) (by decide)
theorem W6_arg9 (c : Dev nD) : W6 m ρ c (Proc.devRef .tc main_arg9) = A9 m c :=
  W6_arg m ρ c main_arg9 (by after_results) (by after_results) (by after_results) (by decide) (by decide) (by decide)

/-! ## Before the last launch -/

theorem W7_v38_apply (c : Dev nD) (k : Fin 64) :
    (W7 m ρ c (Proc.devRef .tc main_v38) : S1x64.Idx → EReal) (ix2 (0 : Fin 1) k) = B3 m c k := by
  show StableHlo.after hostOps3 (W6 m ρ c) (Proc.devRef .tc main_v38) (ix2 (0 : Fin 1) k) = _
  after_results
  rw [W6_arg7 m ρ c]
  exact shapeCast_a_1a_apply _ shapeCasts_S64_S1x64 0 k

theorem W7_v39_apply (c : Dev nD) (k : Fin 512) :
    (W7 m ρ c (Proc.devRef .tc main_v39) : S1x512.Idx → EReal) (ix2 (0 : Fin 1) k) = B4 m c k := by
  show StableHlo.after hostOps3 (W6 m ρ c) (Proc.devRef .tc main_v39) (ix2 (0 : Fin 1) k) = _
  after_results
  rw [W6_arg9 m ρ c]
  exact shapeCast_a_1a_apply _ shapeCasts_S512_S1x512 0 k

theorem W7_arg6 (c : Dev nD) : W7 m ρ c (Proc.devRef .tc main_arg6) = A6 m c := by
  show StableHlo.after hostOps3 (W6 m ρ c) (Proc.devRef .tc main_arg6) = _
  after_results
  exact W6_arg6 m ρ c
theorem W7_arg8 (c : Dev nD) : W7 m ρ c (Proc.devRef .tc main_arg8) = A8 m c := by
  show StableHlo.after hostOps3 (W6 m ρ c) (Proc.devRef .tc main_arg8) = _
  after_results
  exact W6_arg8 m ρ c
theorem W7_v37 (c : Dev nD) : W7 m ρ c (Proc.devRef .tc main_v37) = W6 m ρ c (Proc.devRef .tc main_v37) := by
  show StableHlo.after hostOps3 (W6 m ρ c) (Proc.devRef .tc main_v37) = _
  after_results

/-! ## After the last launch -/

theorem W8_v40 (c : Dev nD) : W8 m ρ c (Proc.devRef .tc main_v40) = Cert.KernelIdeal.Reg3.out (V7 m ρ) c :=
  (W8_arr m ρ c 5).trans (Cert.KernelIdeal.Reg3.final (V7 m ρ) c)

/-- The result buffer's last contents: the decoder of the latent code. -/
theorem W8_v40_apply (c : Dev nD) (p : Fin 50000) (q : Fin 512) :
    (W8 m ρ c (Proc.devRef .tc main_v40) : S50000x512.Idx → EReal) (ix2 p q)
      = Cert.Gcn.dec (Z2 m c) (M3 m c) (B3 m c) (M4 m c) (B4 m c) p q := by
  refine (congrFun (W8_v40 m ρ c) (ix2 p q)).trans ?_
  rw [Cert.KernelIdeal.Reg3.out_apply]
  show _ = Ideal.logistic ((∑ k : Fin 64, max ((∑ j : Fin 32, Z2 m c p j * M3 m c j k) + B3 m c k) 0 * M4 m c k q) + B4 m c q)
  refine congrArg Ideal.logistic (congrArg₂ (· + ·) (Finset.sum_congr rfl fun k _ => congrArg₂ (· * ·)
    (congrArg (max · 0) (congrArg₂ (· + ·) (Finset.sum_congr rfl fun j _ => congrArg₂ (· * ·) ?_ ?_) ?_)) ?_) ?_)
  · exact (congrFun (W7_v37 m ρ c) _).trans (W6_v37_apply m ρ c p j)
  · exact congrFun (W7_arg6 m ρ c) _
  · exact W7_v38_apply m ρ c k
  · exact congrFun (W7_arg8 m ρ c) _
  · exact W7_v39_apply m ρ c q

/-- The same with both layers in the reference's arrangement. -/
theorem W8_v40_layers (c : Dev nD) (p : Fin 50000) (q : Fin 512) :
    (W8 m ρ c (Proc.devRef .tc main_v40) : S50000x512.Idx → EReal) (ix2 p q)
      = Cert.Gcn.dec (Cert.Gcn.layer (srcW m c) (dstW m c) (Cert.Gcn.layer (srcW m c) (dstW m c) (X0 m c) (M1 m c) (B1 m c)) (M2 m c) (B2 m c))
          (M3 m c) (B3 m c) (M4 m c) (B4 m c) p q := by
  rw [W8_v40_apply]
  have e1 : Y1 m c = Cert.Gcn.layer (srcW m c) (dstW m c) (X0 m c) (M1 m c) (B1 m c) :=
    Cert.Gcn.layer_eq (srcW m c) (dstW m c) (dst_loop m c) (X0 m c) (M1 m c) (B1 m c)
  have e2 : Z2 m c = Cert.Gcn.layer (srcW m c) (dstW m c) (Y1 m c) (M2 m c) (B2 m c) :=
    Cert.Gcn.layer_eq (srcW m c) (dstW m c) (dst_loop m c) (Y1 m c) (M2 m c) (B2 m c)
  rw [e2, e1]

end Cert.KernelIdeal.HostV

end
-- ==== Proof.LibPlainDot.lean ====
/-
  The host's plain matrix product, read at an entry.

  For a `dot_general` whose dimension numbers contract the left operand's columns against the right operand's
  rows, with no batch axis — `[M, K] × [K, N] → [M, N]` — the product on the host is, at the extended reals, the
  textbook sum: entry `(p, c)` is the sum over `k` of `lhs (p, k) · rhs (k, c)`. As for a kernel's product into a
  zero accumulator, the dimension numbers enter only through four coordinate facts about the dot's operand indices
  and the fact that exactly one axis, of extent `K`, is contracted; the lemma is general in the extents, the element
  types and the contraction precision.
-/
import Idealize.ShloMosaic.PureOps.Ideal.Laws
import Idealize.ShloMosaic.Lib.ValueIdx

noncomputable section

namespace Cert.LibPlainDot

open Idealize.ShloMosaic Idealize.ShloMosaic.ValueIdx
open scoped BigOperators

/-- Entry `(p, c)` of the host's `lhs · rhs` is `Σ k, lhs (p, k) · rhs (k, c)`: the dot's sum over its one-axis
    contraction index, re-indexed along the bijection of that index with `Fin K`, each operand index then identified
    by its two coordinates. -/
theorem dotGeneral_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    Host.dotGeneral D prec lhs rhs (ix2 p c) = ∑ k : Fin K, lhs (ix2 p k) * rhs (ix2 k c) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.RefRead.lean ====
/-
  The reference program, read at an entry, is the mathematics of a two-layer graph convolution under a decoder.

  Stage by stage the printed values are identified with plain functions of the arguments: the words of the messages'
  sources and targets; the normalising factor of a node (the inverse square root of its degree); the coefficient of a
  message (the product of the factors of its two ends); the matrix products; what arrives at each node (the sum, over
  the messages whose target word names the node, of the source's row times the message's coefficient); the bias and
  the clip at zero; the same for the second layer; and the decoder, a dense layer clipped at zero followed by a dense
  layer under the logistic function, which the program spells as one over one plus the exponential of the negation.
-/
import proofs.«113988_j31370441130067_2_alg».proof.Proof.Gen.ReferenceIdeal.Read
import proofs.«113988_j31370441130067_2_alg».proof.Proof.GcnSpec
import proofs.«113988_j31370441130067_2_alg».proof.Proof.GcnOps
import proofs.«113988_j31370441130067_2_alg».proof.Proof.LibBroadcastIn
import proofs.«113988_j31370441130067_2_alg».proof.Proof.LibBiasRow
import proofs.«113988_j31370441130067_2_alg».proof.Proof.LibPlainDot
import Idealize.ShloMosaic.Lib.IdealHost

noncomputable section

namespace Cert.ReferenceIdeal.RefRead

open Cert.ReferenceIdeal Cert.ReferenceIdeal.Gen Cert.ReferenceIdeal.Read Idealize.ShloMosaic Idealize.ShloMosaic.ValueIdx
open scoped BigOperators

/-- The source word of message e. -/
def srcW (a1 : (⟨S2x1600000, .i32⟩ : BufTy).Contents (Elt Ideal)) : Fin 1650000 → BitVec 32 :=
  fun e => val_main_v3 (F := Ideal) a1 (ix1 e)

/-- The target word of message e. -/
def dstW (a1 : (⟨S2x1600000, .i32⟩ : BufTy).Contents (Elt Ideal)) : Fin 1650000 → BitVec 32 :=
  fun e => val_main_v6 (F := Ideal) a1 (ix1 e)

/-- Every node has its self-loop among the messages: message 1600000 + i has target word i. -/
theorem dst_loop (a1 : (⟨S2x1600000, .i32⟩ : BufTy).Contents (Elt Ideal)) (i : Fin 50000) :
    ∃ e, (dstW a1 e).toInt = (i.val : ℤ) := by
  have hlt : 1600000 + i.val < 1650000 := by have := i.isLt; omega
  have h := Cert.GcnOps.loop_word concatenates_S1600000_S50000_S1650000_d0 (val_main_v5 (F := Ideal) a1) i
  exact Exists.intro (Fin.mk (1600000 + i.val) hlt) h

/-! ## The factor of a node and the coefficient of a message -/

/-- The scattered ones, at node i, are the node's degree. -/
theorem deg_ref (a1 : (⟨S2x1600000, .i32⟩ : BufTy).Contents (Elt Ideal)) (i : Fin 50000) :
    val_main_v10 (F := Ideal) a1 (ix1 i) = Cert.Gcn.deg (dstW a1) i :=
  Cert.GcnOps.deg_apply scatter_S50000_S1650000x1_S1650000_n_0_0_1_wf bcast_S1650000_S1650000x1_0
    bcast_S_S50000 bcast_S_S1650000 _ _ Cert.GcnOps.zero_word Cert.GcnOps.one_word (val_main_v6 (F := Ideal) a1) i

/-- The printed inverse square root of the degree, at node i, is the node's factor. -/
theorem dis_ref (a1 : (⟨S2x1600000, .i32⟩ : BufTy).Contents (Elt Ideal)) (i : Fin 50000) :
    val_main_v11 (F := Ideal) a1 (ix1 i) = Cert.Gcn.dis (dstW a1) i := by
  refine (val_main_v11_apply (F := Ideal) a1 (ix1 i)).trans ?_
  refine (Ideal.hostUnary_rsqrt_def _).trans ?_
  unfold Cert.Gcn.dis
  rw [deg_ref]

/-- The wrap of the source words (as printed before each read of a table at the sources), at message e. -/
theorem wrap_src16 (a1 : (⟨S2x1600000, .i32⟩ : BufTy).Contents (Elt Ideal)) (e : Fin 1650000) :
    val_main_v16 (F := Ideal) a1 (ix1 e) = Cert.Gcn.wr (srcW a1 e) :=
  Cert.GcnOps.wrap_apply bcast_S_S1650000 (val_main_v3 (F := Ideal) a1) e

/-- The wrap of the target words, at message e. -/
theorem wrap_dst23 (a1 : (⟨S2x1600000, .i32⟩ : BufTy).Contents (Elt Ideal)) (e : Fin 1650000) :
    val_main_v23 (F := Ideal) a1 (ix1 e) = Cert.Gcn.wr (dstW a1 e) :=
  Cert.GcnOps.wrap_apply bcast_S_S1650000 (val_main_v6 (F := Ideal) a1) e

/-- The wrap of the source words as printed before the first layer's read of the rows. -/
theorem wrap_src32 (a1 : (⟨S2x1600000, .i32⟩ : BufTy).Contents (Elt Ideal)) (e : Fin 1650000) :
    val_main_v32 (F := Ideal) a1 (ix1 e) = Cert.Gcn.wr (srcW a1 e) :=
  Cert.GcnOps.wrap_apply bcast_S_S1650000 (val_main_v3 (F := Ideal) a1) e

/-- The wrap of the source words as printed before the second layer's read of the rows. -/
theorem wrap_src50 (a1 : (⟨S2x1600000, .i32⟩ : BufTy).Contents (Elt Ideal)) (e : Fin 1650000) :
    val_main_v50 (F := Ideal) a1 (ix1 e) = Cert.Gcn.wr (srcW a1 e) :=
  Cert.GcnOps.wrap_apply bcast_S_S1650000 (val_main_v3 (F := Ideal) a1) e

/-- The factor read at the source of message e. -/
theorem dis_src (a1 : (⟨S2x1600000, .i32⟩ : BufTy).Contents (Elt Ideal)) (e : Fin 1650000) :
    val_main_v18 (F := Ideal) a1 (ix1 e) = Cert.Gcn.dis (dstW a1) (Cert.Gcn.cl (Cert.Gcn.wr (srcW a1 e))) := by
  refine (Cert.GcnOps.gather_entries gather_S50000_S1650000x1_S1650000_n_0_n_n_0_1_1_wf bcast_S1650000_S1650000x1_0
    (val_main_v11 (F := Ideal) a1) (val_main_v16 (F := Ideal) a1) e).trans ?_
  rw [wrap_src16, dis_ref]

/-- The factor read at the target of message e. -/
theorem dis_dst (a1 : (⟨S2x1600000, .i32⟩ : BufTy).Contents (Elt Ideal)) (e : Fin 1650000) :
    val_main_v25 (F := Ideal) a1 (ix1 e) = Cert.Gcn.dis (dstW a1) (Cert.Gcn.cl (Cert.Gcn.wr (dstW a1 e))) := by
  refine (Cert.GcnOps.gather_entries gather_S50000_S1650000x1_S1650000_n_0_n_n_0_1_1_wf bcast_S1650000_S1650000x1_0
    (val_main_v11 (F := Ideal) a1) (val_main_v23 (F := Ideal) a1) e).trans ?_
  rw [wrap_dst23, dis_ref]

/-- The coefficient of message e: the product of the factors of its two ends. -/
theorem norm_ref (a1 : (⟨S2x1600000, .i32⟩ : BufTy).Contents (Elt Ideal)) (e : Fin 1650000) :
    val_main_v26 (F := Ideal) a1 (ix1 e)
      = Cert.Gcn.dis (dstW a1) (Cert.Gcn.cl (Cert.Gcn.wr (srcW a1 e)))
        * Cert.Gcn.dis (dstW a1) (Cert.Gcn.cl (Cert.Gcn.wr (dstW a1 e))) := by
  refine (val_main_v26_apply (F := Ideal) a1 (ix1 e)).trans ?_
  refine (Ideal.mulf_def _ _).trans ?_
  rw [dis_src, dis_dst]

/-! ## The first layer -/

/-- The first product: the features times the first weights. -/
theorem hw1_ref (a0 : (⟨S50000x512, .f32⟩ : BufTy).Contents (Elt Ideal)) (a2 : (⟨S512x64, .f32⟩ : BufTy).Contents (Elt Ideal))
    (i : Fin 50000) (c : Fin 64) :
    val_main_v27 (F := Ideal) a0 a2 (ix2 i c)
      = Cert.Gcn.mm (fun i k => a0 (ix2 i k)) (fun k c => a2 (ix2 k c)) i c :=
  Cert.LibPlainDot.dotGeneral_ix2 dot_S50000x512_S512x64_S50000x64_1_0_0_1_n_n none rfl rfl
    lhs_main_v27_0 lhs_main_v27_1 rhs_main_v27_0 rhs_main_v27_1 a0 a2 i c

/-- What message e carries in the first layer, at column c: its source's row of the product times its coefficient. -/
theorem msg1_ref (a0 : (⟨S50000x512, .f32⟩ : BufTy).Contents (Elt Ideal)) (a1 : (⟨S2x1600000, .i32⟩ : BufTy).Contents (Elt Ideal))
    (a2 : (⟨S512x64, .f32⟩ : BufTy).Contents (Elt Ideal)) (e : Fin 1650000) (c : Fin 64) :
    val_main_v37 (F := Ideal) a0 a1 a2 (ix2 e c)
      = Cert.Gcn.mm (fun i k => a0 (ix2 i k)) (fun k c => a2 (ix2 k c)) (Cert.Gcn.cl (Cert.Gcn.wr (srcW a1 e))) c
        * (Cert.Gcn.dis (dstW a1) (Cert.Gcn.cl (Cert.Gcn.wr (srcW a1 e)))
          * Cert.Gcn.dis (dstW a1) (Cert.Gcn.cl (Cert.Gcn.wr (dstW a1 e)))) := by
  refine (val_main_v37_apply (F := Ideal) a0 a1 a2 (ix2 e c)).trans ?_
  refine (Ideal.mulf_def _ _).trans ?_
  refine congrArg₂ (· * ·) ?_ ?_
  · refine (Cert.GcnOps.gather_rows (D := 64) gather_S50000x64_S1650000x1_S1650000x64_1_0_n_n_0_1_164_wf
      bcast_S1650000_S1650000x1_0 (val_main_v27 (F := Ideal) a0 a2) (val_main_v32 (F := Ideal) a1) e c).trans ?_
    rw [wrap_src32, hw1_ref]
  · refine (Cert.LibBroadcastIn.rows_apply bcast_S1650000x1_S1650000x64_0_1 (val_main_v35 (F := Ideal) a1) e c).trans ?_
    refine (Cert.LibBroadcastIn.col_apply bcast_S1650000_S1650000x1_0 (val_main_v26 (F := Ideal) a1) e 0).trans ?_
    exact norm_ref a1 e

/-- What arrives at node i in the first layer. -/
theorem agg1_ref (a0 : (⟨S50000x512, .f32⟩ : BufTy).Contents (Elt Ideal)) (a1 : (⟨S2x1600000, .i32⟩ : BufTy).Contents (Elt Ideal))
    (a2 : (⟨S512x64, .f32⟩ : BufTy).Contents (Elt Ideal)) (i : Fin 50000) (c : Fin 64) :
    val_main_v40 (F := Ideal) a0 a1 a2 (ix2 i c)
      = Cert.Gcn.aggRef (srcW a1) (dstW a1) (Cert.Gcn.mm (fun i k => a0 (ix2 i k)) (fun k c => a2 (ix2 k c))) i c := by
  refine (Cert.GcnOps.scatter_rows (D := 64) scatter_S50000x64_S1650000x1_S1650000x64_1_0_0_1_wf
    bcast_S1650000_S1650000x1_0 (val_main_v38 (F := Ideal)) (val_main_v6 (F := Ideal) a1)
    (val_main_v37 (F := Ideal) a0 a1 a2) i c).trans ?_
  unfold Cert.Gcn.aggRef
  refine congrArg₂ (· + ·) ?_ (Finset.sum_congr rfl fun e _ => ?_)
  · exact (Cert.LibBroadcastIn.scalar_apply bcast_S_S50000x64 _ _).trans Cert.GcnOps.zero_word
  · rw [msg1_ref]
    rfl

/-- The first layer's output: what arrives, plus the bias, clipped at zero. -/
abbrev H1 (a0 : (⟨S50000x512, .f32⟩ : BufTy).Contents (Elt Ideal)) (a1 : (⟨S2x1600000, .i32⟩ : BufTy).Contents (Elt Ideal))
    (a2 : (⟨S512x64, .f32⟩ : BufTy).Contents (Elt Ideal)) (a3 : (⟨S64, .f32⟩ : BufTy).Contents (Elt Ideal)) : Fin 50000 → Fin 64 → EReal :=
  Cert.Gcn.layer (srcW a1) (dstW a1) (fun i k => a0 (ix2 i k)) (fun k c => a2 (ix2 k c)) (fun c => a3 (ix1 c))

/-- The printed first layer, at (i, c), is that output. -/
theorem h_ref (a0 : (⟨S50000x512, .f32⟩ : BufTy).Contents (Elt Ideal)) (a1 : (⟨S2x1600000, .i32⟩ : BufTy).Contents (Elt Ideal))
    (a2 : (⟨S512x64, .f32⟩ : BufTy).Contents (Elt Ideal)) (a3 : (⟨S64, .f32⟩ : BufTy).Contents (Elt Ideal)) (i : Fin 50000) (c : Fin 64) :
    val_main_v44 (F := Ideal) a0 a1 a2 a3 (ix2 i c) = H1 a0 a1 a2 a3 i c := by
  refine (val_main_v44_apply (F := Ideal) a0 a1 a2 a3 (ix2 i c)).trans ?_
  refine (Ideal.maximumf_def _ _).trans ?_
  unfold H1 Cert.Gcn.layer
  refine congrArg₂ max ?_ ?_
  · refine (val_main_v43_apply (F := Ideal) a0 a1 a2 a3 (ix2 i c)).trans ?_
    refine (Ideal.addf_def _ _).trans ?_
    refine congrArg₂ (· + ·) (agg1_ref a0 a1 a2 i c) ?_
    exact Cert.LibBiasRow.row_tile_apply a3 bcast_S64_S1x64_1 bcast_S1x64_S50000x64_0_1 i c
  · exact (Cert.LibBroadcastIn.scalar_apply bcast_S_S50000x64 _ _).trans Cert.GcnOps.zero_word

/-! ## The second layer -/

/-- The second product: the first layer's output times the second weights. -/
theorem hw2_ref (a0 : (⟨S50000x512, .f32⟩ : BufTy).Contents (Elt Ideal)) (a1 : (⟨S2x1600000, .i32⟩ : BufTy).Contents (Elt Ideal))
    (a2 : (⟨S512x64, .f32⟩ : BufTy).Contents (Elt Ideal)) (a3 : (⟨S64, .f32⟩ : BufTy).Contents (Elt Ideal))
    (a4 : (⟨S64x32, .f32⟩ : BufTy).Contents (Elt Ideal)) (i : Fin 50000) (c : Fin 32) :
    val_main_v45 (F := Ideal) a0 a1 a2 a3 a4 (ix2 i c)
      = Cert.Gcn.mm (H1 a0 a1 a2 a3) (fun k c => a4 (ix2 k c)) i c := by
  refine (Cert.LibPlainDot.dotGeneral_ix2 dot_S50000x64_S64x32_S50000x32_1_0_0_1_n_n none rfl rfl
    lhs_main_v45_0 lhs_main_v45_1 rhs_main_v45_0 rhs_main_v45_1 (val_main_v44 (F := Ideal) a0 a1 a2 a3) a4 i c).trans ?_
  unfold Cert.Gcn.mm
  refine Finset.sum_congr rfl fun k _ => ?_
  rw [h_ref]

/-- What message e carries in the second layer, at column c. -/
theorem msg2_ref (a0 : (⟨S50000x512, .f32⟩ : BufTy).Contents (Elt Ideal)) (a1 : (⟨S2x1600000, .i32⟩ : BufTy).Contents (Elt Ideal))
    (a2 : (⟨S512x64, .f32⟩ : BufTy).Contents (Elt Ideal)) (a3 : (⟨S64, .f32⟩ : BufTy).Contents (Elt Ideal))
    (a4 : (⟨S64x32, .f32⟩ : BufTy).Contents (Elt Ideal)) (e : Fin 1650000) (c : Fin 32) :
    val_main_v55 (F := Ideal) a0 a1 a2 a3 a4 (ix2 e c)
      = Cert.Gcn.mm (H1 a0 a1 a2 a3) (fun k c => a4 (ix2 k c)) (Cert.Gcn.cl (Cert.Gcn.wr (srcW a1 e))) c
        * (Cert.Gcn.dis (dstW a1) (Cert.Gcn.cl (Cert.Gcn.wr (srcW a1 e)))
          * Cert.Gcn.dis (dstW a1) (Cert.Gcn.cl (Cert.Gcn.wr (dstW a1 e)))) := by
  refine (val_main_v55_apply (F := Ideal) a0 a1 a2 a3 a4 (ix2 e c)).trans ?_
  refine (Ideal.mulf_def _ _).trans ?_
  refine congrArg₂ (· * ·) ?_ ?_
  · refine (Cert.GcnOps.gather_rows (D := 32) gather_S50000x32_S1650000x1_S1650000x32_1_0_n_n_0_1_132_wf
      bcast_S1650000_S1650000x1_0 (val_main_v45 (F := Ideal) a0 a1 a2 a3 a4) (val_main_v50 (F := Ideal) a1) e c).trans ?_
    rw [wrap_src50, hw2_ref]
  · refine (Cert.LibBroadcastIn.rows_apply bcast_S1650000x1_S1650000x32_0_1 (val_main_v53 (F := Ideal) a1) e c).trans ?_
    refine (Cert.LibBroadcastIn.col_apply bcast_S1650000_S1650000x1_0 (val_main_v26 (F := Ideal) a1) e 0).trans ?_
    exact norm_ref a1 e

/-- What arrives at node i in the second layer. -/
theorem agg2_ref (a0 : (⟨S50000x512, .f32⟩ : BufTy).Contents (Elt Ideal)) (a1 : (⟨S2x1600000, .i32⟩ : BufTy).Contents (Elt Ideal))
    (a2 : (⟨S512x64, .f32⟩ : BufTy).Contents (Elt Ideal)) (a3 : (⟨S64, .f32⟩ : BufTy).Contents (Elt Ideal))
    (a4 : (⟨S64x32, .f32⟩ : BufTy).Contents (Elt Ideal)) (i : Fin 50000) (c : Fin 32) :
    val_main_v58 (F := Ideal) a0 a1 a2 a3 a4 (ix2 i c)
      = Cert.Gcn.aggRef (srcW a1) (dstW a1) (Cert.Gcn.mm (H1 a0 a1 a2 a3) (fun k c => a4 (ix2 k c))) i c := by
  refine (Cert.GcnOps.scatter_rows (D := 32) scatter_S50000x32_S1650000x1_S1650000x32_1_0_0_1_wf
    bcast_S1650000_S1650000x1_0 (val_main_v56 (F := Ideal)) (val_main_v6 (F := Ideal) a1)
    (val_main_v55 (F := Ideal) a0 a1 a2 a3 a4) i c).trans ?_
  unfold Cert.Gcn.aggRef
  refine congrArg₂ (· + ·) ?_ (Finset.sum_congr rfl fun e _ => ?_)
  · exact (Cert.LibBroadcastIn.scalar_apply bcast_S_S50000x32 _ _).trans Cert.GcnOps.zero_word
  · rw [msg2_ref]
    rfl

/-- The second layer's output. -/
abbrev H2 (a0 : (⟨S50000x512, .f32⟩ : BufTy).Contents (Elt Ideal)) (a1 : (⟨S2x1600000, .i32⟩ : BufTy).Contents (Elt Ideal))
    (a2 : (⟨S512x64, .f32⟩ : BufTy).Contents (Elt Ideal)) (a3 : (⟨S64, .f32⟩ : BufTy).Contents (Elt Ideal))
    (a4 : (⟨S64x32, .f32⟩ : BufTy).Contents (Elt Ideal)) (a5 : (⟨S32, .f32⟩ : BufTy).Contents (Elt Ideal)) : Fin 50000 → Fin 32 → EReal :=
  Cert.Gcn.layer (srcW a1) (dstW a1) (H1 a0 a1 a2 a3) (fun k c => a4 (ix2 k c)) (fun c => a5 (ix1 c))

/-- The printed second layer, at (i, c), is that output. -/
theorem z_ref (a0 : (⟨S50000x512, .f32⟩ : BufTy).Contents (Elt Ideal)) (a1 : (⟨S2x1600000, .i32⟩ : BufTy).Contents (Elt Ideal))
    (a2 : (⟨S512x64, .f32⟩ : BufTy).Contents (Elt Ideal)) (a3 : (⟨S64, .f32⟩ : BufTy).Contents (Elt Ideal))
    (a4 : (⟨S64x32, .f32⟩ : BufTy).Contents (Elt Ideal)) (a5 : (⟨S32, .f32⟩ : BufTy).Contents (Elt Ideal)) (i : Fin 50000) (c : Fin 32) :
    val_main_v62 (F := Ideal) a0 a1 a2 a3 a4 a5 (ix2 i c) = H2 a0 a1 a2 a3 a4 a5 i c := by
  refine (val_main_v62_apply (F := Ideal) a0 a1 a2 a3 a4 a5 (ix2 i c)).trans ?_
  refine (Ideal.maximumf_def _ _).trans ?_
  unfold H2 Cert.Gcn.layer
  refine congrArg₂ max ?_ ?_
  · refine (val_main_v61_apply (F := Ideal) a0 a1 a2 a3 a4 a5 (ix2 i c)).trans ?_
    refine (Ideal.addf_def _ _).trans ?_
    refine congrArg₂ (· + ·) (agg2_ref a0 a1 a2 a3 a4 i c) ?_
    exact Cert.LibBiasRow.row_tile_apply a5 bcast_S32_S1x32_1 bcast_S1x32_S50000x32_0_1 i c
  · exact (Cert.LibBroadcastIn.scalar_apply bcast_S_S50000x32 _ _).trans Cert.GcnOps.zero_word

/-! ## The decoder -/

/-- The decoder's hidden layer: the code times the third weights, plus the bias, clipped at zero. -/
theorem d1_ref (a0 : (⟨S50000x512, .f32⟩ : BufTy).Contents (Elt Ideal)) (a1 : (⟨S2x1600000, .i32⟩ : BufTy).Contents (Elt Ideal))
    (a2 : (⟨S512x64, .f32⟩ : BufTy).Contents (Elt Ideal)) (a3 : (⟨S64, .f32⟩ : BufTy).Contents (Elt Ideal))
    (a4 : (⟨S64x32, .f32⟩ : BufTy).Contents (Elt Ideal)) (a5 : (⟨S32, .f32⟩ : BufTy).Contents (Elt Ideal))
    (a6 : (⟨S32x64, .f32⟩ : BufTy).Contents (Elt Ideal)) (a7 : (⟨S64, .f32⟩ : BufTy).Contents (Elt Ideal)) (i : Fin 50000) (c : Fin 64) :
    val_main_v67 (F := Ideal) a0 a1 a2 a3 a4 a5 a6 a7 (ix2 i c)
      = max (Cert.Gcn.mm (H2 a0 a1 a2 a3 a4 a5) (fun k c => a6 (ix2 k c)) i c + a7 (ix1 c)) 0 := by
  refine (val_main_v67_apply (F := Ideal) a0 a1 a2 a3 a4 a5 a6 a7 (ix2 i c)).trans ?_
  refine (Ideal.maximumf_def _ _).trans ?_
  refine congrArg₂ max ?_ ?_
  · refine (val_main_v66_apply (F := Ideal) a0 a1 a2 a3 a4 a5 a6 a7 (ix2 i c)).trans ?_
    refine (Ideal.addf_def _ _).trans ?_
    refine congrArg₂ (· + ·) ?_ ?_
    · refine (Cert.LibPlainDot.dotGeneral_ix2 dot_S50000x32_S32x64_S50000x64_1_0_0_1_n_n none rfl rfl
        lhs_main_v63_0 lhs_main_v63_1 rhs_main_v63_0 rhs_main_v63_1
        (val_main_v62 (F := Ideal) a0 a1 a2 a3 a4 a5) a6 i c).trans ?_
      unfold Cert.Gcn.mm
      refine Finset.sum_congr rfl fun k _ => ?_
      rw [z_ref]
    · exact Cert.LibBiasRow.row_tile_apply a7 bcast_S64_S1x64_1 bcast_S1x64_S50000x64_0_1 i c
  · exact (Cert.LibBroadcastIn.scalar_apply bcast_S_S50000x64 _ _).trans Cert.GcnOps.zero_word

/-- The decoder's output before the logistic function. -/
theorem pre_ref (a0 : (⟨S50000x512, .f32⟩ : BufTy).Contents (Elt Ideal)) (a1 : (⟨S2x1600000, .i32⟩ : BufTy).Contents (Elt Ideal))
    (a2 : (⟨S512x64, .f32⟩ : BufTy).Contents (Elt Ideal)) (a3 : (⟨S64, .f32⟩ : BufTy).Contents (Elt Ideal))
    (a4 : (⟨S64x32, .f32⟩ : BufTy).Contents (Elt Ideal)) (a5 : (⟨S32, .f32⟩ : BufTy).Contents (Elt Ideal))
    (a6 : (⟨S32x64, .f32⟩ : BufTy).Contents (Elt Ideal)) (a7 : (⟨S64, .f32⟩ : BufTy).Contents (Elt Ideal))
    (a8 : (⟨S64x512, .f32⟩ : BufTy).Contents (Elt Ideal)) (a9 : (⟨S512, .f32⟩ : BufTy).Contents (Elt Ideal)) (p : Fin 50000) (q : Fin 512) :
    val_main_v71 (F := Ideal) a0 a1 a2 a3 a4 a5 a6 a7 a8 a9 (ix2 p q)
      = Cert.Gcn.mm (fun i c => max (Cert.Gcn.mm (H2 a0 a1 a2 a3 a4 a5) (fun k c => a6 (ix2 k c)) i c + a7 (ix1 c)) 0)
          (fun k c => a8 (ix2 k c)) p q + a9 (ix1 q) := by
  refine (val_main_v71_apply (F := Ideal) a0 a1 a2 a3 a4 a5 a6 a7 a8 a9 (ix2 p q)).trans ?_
  refine (Ideal.addf_def _ _).trans ?_
  refine congrArg₂ (· + ·) ?_ ?_
  · refine (Cert.LibPlainDot.dotGeneral_ix2 dot_S50000x64_S64x512_S50000x512_1_0_0_1_n_n none rfl rfl
      lhs_main_v68_0 lhs_main_v68_1 rhs_main_v68_0 rhs_main_v68_1
      (val_main_v67 (F := Ideal) a0 a1 a2 a3 a4 a5 a6 a7) a8 p q).trans ?_
    unfold Cert.Gcn.mm
    refine Finset.sum_congr rfl fun k _ => ?_
    rw [d1_ref]
    rfl
  · exact Cert.LibBiasRow.row_tile_apply a9 bcast_S512_S1x512_1 bcast_S1x512_S50000x512_0_1 p q

/-- THE RESULT: the reference's last value, at (p, q), is the decoder of two layers. -/
theorem ref_apply (a0 : (⟨S50000x512, .f32⟩ : BufTy).Contents (Elt Ideal)) (a1 : (⟨S2x1600000, .i32⟩ : BufTy).Contents (Elt Ideal))
    (a2 : (⟨S512x64, .f32⟩ : BufTy).Contents (Elt Ideal)) (a3 : (⟨S64, .f32⟩ : BufTy).Contents (Elt Ideal))
    (a4 : (⟨S64x32, .f32⟩ : BufTy).Contents (Elt Ideal)) (a5 : (⟨S32, .f32⟩ : BufTy).Contents (Elt Ideal))
    (a6 : (⟨S32x64, .f32⟩ : BufTy).Contents (Elt Ideal)) (a7 : (⟨S64, .f32⟩ : BufTy).Contents (Elt Ideal))
    (a8 : (⟨S64x512, .f32⟩ : BufTy).Contents (Elt Ideal)) (a9 : (⟨S512, .f32⟩ : BufTy).Contents (Elt Ideal)) (p : Fin 50000) (q : Fin 512) :
    val_main_v77 (F := Ideal) a0 a1 a2 a3 a4 a5 a6 a7 a8 a9 (ix2 p q)
      = Cert.Gcn.dec
          (Cert.Gcn.layer (srcW a1) (dstW a1)
            (Cert.Gcn.layer (srcW a1) (dstW a1) (fun i k => a0 (ix2 i k)) (fun k c => a2 (ix2 k c)) (fun c => a3 (ix1 c)))
            (fun k c => a4 (ix2 k c)) (fun c => a5 (ix1 c)))
          (fun k c => a6 (ix2 k c)) (fun c => a7 (ix1 c)) (fun k c => a8 (ix2 k c)) (fun c => a9 (ix1 c)) p q := by
  refine (val_main_v77_apply (F := Ideal) a0 a1 a2 a3 a4 a5 a6 a7 a8 a9 (ix2 p q)).trans ?_
  refine (Ideal.hostDivf_def _ _).trans ?_
  unfold Cert.Gcn.dec Ideal.logistic
  refine congrArg₂ Ideal.div ?_ ?_
  · exact (Cert.LibBroadcastIn.scalar_apply bcast_S_S50000x512 _ _).trans Cert.GcnOps.one_word
  · refine (val_main_v75_apply (F := Ideal) a0 a1 a2 a3 a4 a5 a6 a7 a8 a9 (ix2 p q)).trans ?_
    refine (Ideal.addf_def _ _).trans ?_
    refine congrArg₂ (· + ·) ((Cert.LibBroadcastIn.scalar_apply bcast_S_S50000x512 _ _).trans Cert.GcnOps.one_word) ?_
    refine (val_main_v73_apply (F := Ideal) a0 a1 a2 a3 a4 a5 a6 a7 a8 a9 (ix2 p q)).trans ?_
    refine (Ideal.hostUnary_exp_def _).trans ?_
    refine congrArg Ideal.exp ?_
    refine (val_main_v72_apply (F := Ideal) a0 a1 a2 a3 a4 a5 a6 a7 a8 a9 (ix2 p q)).trans ?_
    refine (Ideal.hostNegf_def _).trans ?_
    refine (Ideal.negf_def _).trans ?_
    exact congrArg (fun x : EReal => -x) (pre_ref a0 a1 a2 a3 a4 a5 a6 a7 a8 a9 p q)

end Cert.ReferenceIdeal.RefRead

end
-- ==== Proof.lean ====
/-
  A two-layer graph convolution with a dense decoder, in two arrangements, computes one function.

  The graph has 50000 nodes and 1650000 messages: the given edges followed by one self-loop per node. With the degree
  of a node the number of messages arriving at it and its factor the inverse square root of the degree, a layer
  multiplies the node features by a weight matrix, sends every node's row along its messages scaled by the factors of
  both ends, adds what arrives at each node, adds a bias and clips at zero. The reference does exactly this, twice, and
  then decodes: a dense layer clipped at zero and a dense layer under the logistic function.

  The kernel program does the dense work in four tiled launches and scales differently: each row of a product is
  scaled by its own node's factor before it is sent, and what arrives at a node is scaled by that node's factor
  afterwards (the first layer's finish and the second layer's product share one launch). Over the extended reals the
  two arrangements agree because every message arriving at a node shares that node's factor, a non-negative real —
  every node has its self-loop, so no degree is zero — and multiplication by a non-negative real distributes over any
  sum. The matrix products are the same sums on both sides (a change of float format is the identity), the rows taken
  and added by the host are the same operations at the same words, and the logistic function is the reference's
  one over one plus the exponential of the negation.

  The three programs' frames are the generated ones (the reference's its generated run with the result dropped); the
  idealized kernel is the kernel's own text, so there is nothing to preserve.
-/
import proofs.«113988_j31370441130067_2_alg».proof.Defs
import proofs.«113988_j31370441130067_2_alg».proof.Proof.Gen.Kernel
import proofs.«113988_j31370441130067_2_alg».proof.Proof.Gen.Kernel.Skeleton
import proofs.«113988_j31370441130067_2_alg».proof.Proof.Gen.Kernel.Launch
import proofs.«113988_j31370441130067_2_alg».proof.Proof.Gen.Kernel.Points
import proofs.«113988_j31370441130067_2_alg».proof.Proof.Gen.Kernel.Frame
import proofs.«113988_j31370441130067_2_alg».proof.Proof.Gen.KernelIdeal
import proofs.«113988_j31370441130067_2_alg».proof.Proof.Gen.KernelIdeal.Skeleton
import proofs.«113988_j31370441130067_2_alg».proof.Proof.Gen.KernelIdeal.Launch
import proofs.«113988_j31370441130067_2_alg».proof.Proof.Gen.KernelIdeal.Points
import proofs.«113988_j31370441130067_2_alg».proof.Proof.Gen.KernelIdeal.Frame
import proofs.«113988_j31370441130067_2_alg».proof.Proof.Gen.ReferenceIdeal
import proofs.«113988_j31370441130067_2_alg».proof.Proof.Gen.ReferenceIdeal.Run
import proofs.«113988_j31370441130067_2_alg».proof.Proof.Gen.ReferenceIdeal.Read
import proofs.«113988_j31370441130067_2_alg».proof.Proof.Gen.Pre_finite_inputs
import proofs.«113988_j31370441130067_2_alg».proof.Proof.KernelRun
import proofs.«113988_j31370441130067_2_alg».proof.Proof.KHost3
import proofs.«113988_j31370441130067_2_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal.HostV in
/-- The reference's last value, taken at the kernel program's arguments, is what the kernel's result buffer ends
    holding: entry by entry both are the decoder of the two layers. -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.ReferenceIdeal.Read.val_main_v77 (F := Ideal) (A0 m c) (A1 m c) (A2 m c) (A3 m c) (A4 m c) (A5 m c) (A6 m c) (A7 m c) (A8 m c) (A9 m c)
      = Cert.KernelIdeal.Gen.W8 m ρ c (Proc.devRef .tc Cert.KernelIdeal.main_v40) := by
  funext j
  obtain ⟨p, q, rfl⟩ : ∃ (p : Fin 50000) (q : Fin 512), j = ix2 p q := ⟨j 0, j 1, eq_ix2 j⟩
  refine (Cert.ReferenceIdeal.RefRead.ref_apply _ _ _ _ _ _ _ _ _ _ p q).trans ?_
  exact (W8_v40_layers m ρ c p q).symm

/-- From memories agreeing on the arguments both programs run, and end with the same result array. -/
theorem algebraic : Cert.algebraic_KernelIdeal_ReferenceIdeal := by
  intro m ρ m' ρ' _ hagree
  refine ⟨fun c => Cert.KernelIdeal.Gen.W8 m ρ c (Proc.devRef .tc Cert.KernelIdeal.main_v40),
    Cert.KernelIdeal.RunV.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v77_eq]
  obtain ⟨h0, h1, h2, h3, h4, h5, h6, h7, h8, h9⟩ := hagree c
  rw [h0, h1, h2, h3, h4, h5, h6, h7, h8, h9]
  exact result_eq m ρ c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
